-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x256 .f32) (main_arg1 : FVec F S8192x8192 .f32) (main_arg2 : FVec F S8192x8192 .f32) (main_arg3 : FVec F S256x256 .f32) (main_arg4 : FVec F S8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S8192 : Shape := ⟨1, ![8192]⟩
abbrev S2048x256 : Shape := ⟨2, ![2048, 256]⟩
abbrev S8192x1 : Shape := ⟨2, ![8192, 1]⟩
abbrev S1024x2048 : Shape := ⟨2, ![1024, 2048]⟩
abbrev S1024x1 : Shape := ⟨2, ![1024, 1]⟩
abbrev S1024x256 : Shape := ⟨2, ![1024, 256]⟩

abbrev nBuf : Space → Nat
  | .hbm => 9
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x256, .f32⟩
  | .hbm, ⟨4, _⟩ => ⟨S8192, .f32⟩
  | .hbm, ⟨5, _⟩ => ⟨S8192x256, .bf16⟩
  | .hbm, ⟨6, _⟩ => ⟨S8192x1, .f32⟩
  | .hbm, ⟨7, _⟩ => ⟨S8192x256, .bf16⟩
  | .hbm, ⟨8, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | .local _ .vmem, ⟨6, _⟩ => ⟨S1024x2048, .f32⟩
  | .local _ .vmem, ⟨7, _⟩ => ⟨S1024x2048, .f32⟩
  | .local _ .vmem, ⟨8, _⟩ => ⟨S8192x256, .bf16⟩
  | .local _ .vmem, ⟨9, _⟩ => ⟨S1024x1, .f32⟩
  | .local _ .vmem, ⟨10, _⟩ => ⟨S1024x1, .f32⟩
  | .local _ .vmem, ⟨11, _⟩ => ⟨S1024x256, .bf16⟩
  | .local _ .vmem, ⟨12, _⟩ => ⟨S1024x256, .bf16⟩
  | .local _ .vmem, ⟨13, _⟩ => ⟨S1024x256, .f32⟩
  | .local _ .vmem, ⟨14, _⟩ => ⟨S1024x2048, .f32⟩
  | .local _ .vmem, ⟨15, _⟩ => ⟨S1024x2048, .f32⟩
  | .local _ .vmem, ⟨16, _⟩ => ⟨S8192x256, .bf16⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  shapeCasts_S8192_S8192x1 : S8192.ShapeCasts S8192x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  packedbf16_S1024x256_S1024x256_0_0 : (Rect.unit (s := S1024x256) ![0, 0] S1024x256.size inb_S1024x256_S1024x256_0_0).PackedRows (EltTy.packing .bf16)
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S8192 : Shape := ⟨1, ![8192]⟩
abbrev S8192x1 : Shape := ⟨2, ![8192, 1]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x256, .f32⟩
  | .hbm, ⟨4, _⟩ => ⟨S8192, .f32⟩
  | .hbm, ⟨5, _⟩ => ⟨S8192x256, .f32⟩
  | .hbm, ⟨6, _⟩ => ⟨S8192x256, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.WordLevel.R0Base.lean ====
/-
  Region 0 — the product features · weight, one block of 2048 rows per grid point, the whole 256-term contraction in one
  step — what its single control case needs: the blocks of its windows read off the arrays the region finds, the two
  conditions of the body (both hold at every point: the accumulator is reset, added to, and stored out), and the
  accumulator scratch taken out of (and put back among) the scoped buffers no window stages.
-/
import proofs.«168331_j13383118094872_2_alg».proof.Proof.Gen.Kernel.Launch
import proofs.«168331_j13383118094872_2_alg».proof.Proof.Gen.Kernel.Skeleton
import proofs.«168331_j13383118094872_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's first condition: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))
/-- The body's second condition: the column-block coordinate is the last, which here is 0 again. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated. -/
abbrev VO0_2 : View sig .tc .vmem S2048x256 .bf16 := (Memref.whole cc0_stg2_0 : Memref sig .tc .vmem S2048x256 .bf16).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x256 .f32 := Memref.whole cc0_scratch0
abbrev VS0 : View sig .tc .vmem S2048x256 .f32 := scM0.view

/-- The scoped buffers no window of this region stages, less the accumulator: whatever, together with the accumulator
    at some contents, makes the region's entry invariant again. -/
def rest0 (c : Dev nD) : sProp 𝕄 :=
  iprop((∃ d, owns (c : Thread nD τ) scM0 fullShare d) -∗ Pipeline.ΦA (U := UR sig nD τ) (Val := Elt F) spec0 c)

/-- The entry invariant hands out the accumulator at some contents beside that remainder. -/
theorem PhiA0_split (c : Dev nD) :
    (Pipeline.ΦA (U := UR sig nD τ) (Val := Elt F) spec0 c : sProp 𝕄) ⊢ iprop((∃ d, owns (c : Thread nD τ) scM0 fullShare d) ∗ rest0 (F := F) c) := by
  unfold rest0 Pipeline.ΦA; rw [scopedRest0_eq]; simp only [scM0, owns_whole]
  iintro ⟨⟨H0, H1, H2, H3, H4, H5, H6, H7, H8, H9, H10, H11, H12, H13, H14⟩, Hg⟩
  isplitl [H0]; · iexact H0
  iintro H0
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

end Cert.Kernel.Hand

end
-- ==== Proof.WordLevel.R0Run.lean ====
/-
  Region 0's one case (both conditions hold): the body resets the accumulator to zero, adds the block's product into it
  and stores it out. The run finds the pieces the output window's buffer and the accumulator end with.
-/
import proofs.«168331_j13383118094872_2_alg».proof.Proof.WordLevel.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output window's buffer and the accumulator end with, with the body's triple: inputs kept, the output and
    the accumulator entered at anything. -/
noncomputable def kernelRun0_D (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .bf16) (harg4 : arg4.IsWhole) (arg5 : Memref sig .tc .vmem S2048x256 .f32) (harg5 : arg5.IsWhole) (hc0 : cond0_0 i) (hc1 : cond0_1 i)
    (x0 : Vec F S2048x256 .f32) (x1 : Vec F S256x256 .f32) :
    Σ' (L2 : List (View.Piece (Elt F) S2048x256 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.WordLevel.R0Frame.lean ====
/-
  Region 0's proof data. Every grid point is a whole contraction: the body resets the accumulator, adds the point's
  product and stores it out, so after the body the output window's buffer holds what that one case leaves of the point's
  two input blocks, and the invariant between points is the entry invariant (the accumulator at anything). From this:
  the body obligation at every point.
-/
import proofs.«168331_j13383118094872_2_alg».proof.Proof.WordLevel.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The case's pieces cover the output window's block. -/
theorem cover0_D (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .bf16) (harg4 : arg4.IsWhole) (arg5 : Memref sig .tc .vmem S2048x256 .f32) (harg5 : arg5.IsWhole) (hc0 : cond0_0 i) (hc1 : cond0_1 i) (x0 : Vec F S2048x256 .f32) (x1 : Vec F S256x256 .f32) (y : S2048x256.Idx) :
    ∃ pc ∈ (kernelRun0_D (F := F) c i arg2 harg2 arg3 harg3 arg4 harg4 arg5 harg5 hc0 hc1 x0 x1).1, y ∈ pc.1.set :=
  View.cover_of_tiledL (kernelRun0_D (F := F) c i arg2 harg2 arg3 harg3 arg4 harg4 arg5 harg5 hc0 hc1 x0 x1).1 S2048x256.size (by sl_kernel_rfl) y
/-- What the case leaves in the output window's buffer. -/
def out0_D (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .bf16) (harg4 : arg4.IsWhole) (arg5 : Memref sig .tc .vmem S2048x256 .f32) (harg5 : arg5.IsWhole) (hc0 : cond0_0 i) (hc1 : cond0_1 i) (x0 : Vec F S2048x256 .f32) (x1 : Vec F S256x256 .f32) : Vec F S2048x256 .bf16 :=
  VO0_2.read (Elt F) (VO0_2.writes (Elt F) VO0_2.junk (kernelRun0_D (F := F) c i arg2 harg2 arg3 harg3 arg4 harg4 arg5 harg5 hc0 hc1 x0 x1).1)

section Region0
variable (V : (c : Dev nD) → (b : Ref sig .tc) → Buf (Elt F) ((c : Thread nD τ).loc b))

/-- The region's proof data on core `c`: the arrays as found; after the body each input's buffer at its block, the
    output's at what the case leaves of the point's blocks; the entry invariant throughout; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the one case's run, the accumulator taken out of the entry invariant at anything and put back
    at whatever the run leaves in it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_D; (try dsimp only)
  iintro ⟨HΦ, Ho, ⟨%d0, H0⟩, ⟨%d1, H1⟩, ⟨%d2, H2⟩⟩
  ihave HΦ' := (PhiA0_split (F := F) c) $$ HΦ
  icases HΦ' with ⟨HS0, HR⟩
  iapply ((kernelRun0_D c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR]
  · unfold rest0
    iapply HR
    iexists _; unfold owns; iexists _; isplitr
    swap; · iexact HS0
    ipureintro; rfl
  isplitl [Ho]; · iexact Ho
  isplitl [H0]; · iexact H0
  isplitl [H1]; · iexact H1
  unfold owns; iexists _; isplitr
  swap; · iexact H2
  ipureintro; exact View.read_writes_of_cover _ _ _ _ _ (cover0_D c _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.WordLevel.R1Base.lean ====
/-
  Region 1 — the row-scaled product filt ⊙ (wavelets_inv · transformed), accumulated over four blocks of 2048 columns per
  block of 1024 rows — what its three control cases share: the blocks of its windows read off the arrays the region
  finds, the two conditions of the body (first block of a row block: the accumulator is reset; last block: the scaled
  accumulator is stored) in closed form over the 32 grid points, where the output window is idle, and the accumulator
  scratch taken out of (and put back among) the scoped buffers no window stages.
-/
import proofs.«168331_j13383118094872_2_alg».proof.Proof.Gen.Kernel.Launch
import proofs.«168331_j13383118094872_2_alg».proof.Proof.Gen.Kernel.Skeleton
import proofs.«168331_j13383118094872_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The body's first condition: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The body's second condition: the column-block coordinate is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the scaled accumulator is not stored the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x256 .bf16 := (Memref.whole cc1_stg3_0 : Memref sig .tc .vmem S1024x256 .bf16).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x256 .f32 := Memref.whole cc1_scratch0
abbrev VS1 : View sig .tc .vmem S1024x256 .f32 := scM1.view

/-- The scoped buffers no window of this region stages, less the accumulator: whatever, together with the accumulator
    at some contents and the generator register, makes the region's entry invariant again. -/
def rest1 (c : Dev nD) : sProp 𝕄 :=
  iprop((∃ d, owns (c : Thread nD τ) scM1 fullShare d) -∗ Pipeline.ΦA (U := UR sig nD τ) (Val := Elt F) spec1 c)

/-- The entry invariant hands out the accumulator at some contents beside that remainder. -/
theorem PhiA1_split (c : Dev nD) :
    (Pipeline.ΦA (U := UR sig nD τ) (Val := Elt F) spec1 c : sProp 𝕄) ⊢ iprop((∃ d, owns (c : Thread nD τ) scM1 fullShare d) ∗ rest1 (F := F) c) := by
  unfold rest1 Pipeline.ΦA; rw [scopedRest1_eq]; simp only [scM1, owns_whole]
  iintro ⟨⟨H0, H1, H2, H3, H4, H5, H6, H7, H8, H9, H10, H11, H12⟩, Hg⟩
  isplitl [H6]; · iexact H6
  iintro H6
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

end Cert.Kernel.Hand

end
-- ==== Proof.WordLevel.R1RunA.lean ====
/-
  Region 1, first block of a row block (the column-block coordinate is 0): the body resets the accumulator to zero and
  adds the block's product into it; nothing is stored into the output window. The run finds the pieces the accumulator
  ends with.
-/
import proofs.«168331_j13383118094872_2_alg».proof.Proof.WordLevel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at anything. -/
noncomputable def kernelRun1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) :
    { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_resident_kernel i arg2 harg2 arg3 harg3 arg4 harg4 arg5 harg5 arg6 harg6) K } := by
  refine ⟨?_, fun xi3 E K => ?run⟩
  case run =>
    simp only [cc1__matmul_scale_resident_kernel_eq_skeleton]; unfold cc1__matmul_scale_resident_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.WordLevel.R1RunB.lean ====
/-
  Region 1, a middle block of a row block (the column-block coordinate is 1 or 2): the body adds the block's product
  into the accumulator it finds; nothing is stored into the output window.
-/
import proofs.«168331_j13383118094872_2_alg».proof.Proof.WordLevel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at what the point before left. -/
noncomputable def kernelRun1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) :
    { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_resident_kernel i arg2 harg2 arg3 harg3 arg4 harg4 arg5 harg5 arg6 harg6) K } := by
  refine ⟨?_, fun xi3 E K => ?run⟩
  case run =>
    simp only [cc1__matmul_scale_resident_kernel_eq_skeleton]; unfold cc1__matmul_scale_resident_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.WordLevel.R1RunC.lean ====
/-
  Region 1, last block of a row block (the column-block coordinate is 3): the body adds the block's product into the
  accumulator it finds and stores the accumulator, scaled row by row, into the output window.
-/
import proofs.«168331_j13383118094872_2_alg».proof.Proof.WordLevel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output window's buffer and the accumulator end with in this case, with the body's triple: inputs kept,
    the output entered at anything, the accumulator at what the point before left. -/
noncomputable def kernelRun1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) :
    Σ' (L3 : List (View.Piece (Elt F) S1024x256 .bf16)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_resident_kernel i arg2 harg2 arg3 harg3 arg4 harg4 arg5 harg5 arg6 harg6) K } := by
  refine ⟨?_, ?_, fun E K => ?run⟩
  case run =>
    simp only [cc1__matmul_scale_resident_kernel_eq_skeleton]; unfold cc1__matmul_scale_resident_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.WordLevel.R1Frame.lean ====
/-
  Region 1's proof data. After the body at grid point n (row block n / 4, column block n % 4) the accumulator holds what
  the point's case leaves in it — at a first block the reset-and-add of the point's blocks, otherwise the add over what
  the point before left — and at a last block the output window's buffer holds the scaled accumulator; between points
  the invariant keeps the accumulator at exactly that. From this: the body obligation at every point.
-/
import proofs.«168331_j13383118094872_2_alg».proof.Proof.WordLevel.R1RunA
import proofs.«168331_j13383118094872_2_alg».proof.Proof.WordLevel.R1RunB
import proofs.«168331_j13383118094872_2_alg».proof.Proof.WordLevel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces cover the accumulator. -/
theorem scover1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i) (x0 : Vec F S1024x2048 .f32) (x1 : Vec F S8192x256 .bf16) (x2 : Vec F S1024x1 .f32) (y : S1024x256.Idx) :
    ∃ pc ∈ (kernelRun1_A (F := F) c i arg2 harg2 arg3 harg3 arg4 harg4 arg5 harg5 arg6 harg6 hc0 hc1 x0 x1 x2).1, y ∈ pc.1.set :=
  View.cover_of_tiledL (kernelRun1_A (F := F) c i arg2 harg2 arg3 harg3 arg4 harg4 arg5 harg5 arg6 harg6 hc0 hc1 x0 x1 x2).1 S1024x256.size (by sl_kernel_rfl) y
/-- What case A leaves in the accumulator. -/
def sout1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i) (x0 : Vec F S1024x2048 .f32) (x1 : Vec F S8192x256 .bf16) (x2 : Vec F S1024x1 .f32) : Vec F S1024x256 .f32 :=
  VS1.read (Elt F) (VS1.writes (Elt F) VS1.junk (kernelRun1_A (F := F) c i arg2 harg2 arg3 harg3 arg4 harg4 arg5 harg5 arg6 harg6 hc0 hc1 x0 x1 x2).1)

theorem scover1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i) (x0 : Vec F S1024x2048 .f32) (x1 : Vec F S8192x256 .bf16) (x2 : Vec F S1024x1 .f32) (xs0 : Vec F S1024x256 .f32) (y : S1024x256.Idx) :
    ∃ pc ∈ (kernelRun1_B (F := F) c i arg2 harg2 arg3 harg3 arg4 harg4 arg5 harg5 arg6 harg6 hc0 hc1 x0 x1 x2 xs0).1, y ∈ pc.1.set :=
  View.cover_of_tiledL (kernelRun1_B (F := F) c i arg2 harg2 arg3 harg3 arg4 harg4 arg5 harg5 arg6 harg6 hc0 hc1 x0 x1 x2 xs0).1 S1024x256.size (by sl_kernel_rfl) y
/-- What case B leaves in the accumulator, over what it found there. -/
def sout1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i) (x0 : Vec F S1024x2048 .f32) (x1 : Vec F S8192x256 .bf16) (x2 : Vec F S1024x1 .f32) (xs0 : Vec F S1024x256 .f32) : Vec F S1024x256 .f32 :=
  VS1.read (Elt F) (VS1.writes (Elt F) VS1.junk (kernelRun1_B (F := F) c i arg2 harg2 arg3 harg3 arg4 harg4 arg5 harg5 arg6 harg6 hc0 hc1 x0 x1 x2 xs0).1)

theorem cover1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) (y : S1024x256.Idx) :
    ∃ pc ∈ (kernelRun1_C (F := F) c i arg2 harg2 arg3 harg3 arg4 harg4 arg5 harg5 arg6 harg6 hc0 hc1 x0 x1 x2 xs0).1, y ∈ pc.1.set :=
  View.cover_of_tiledL (kernelRun1_C (F := F) c i arg2 harg2 arg3 harg3 arg4 harg4 arg5 harg5 arg6 harg6 hc0 hc1 x0 x1 x2 xs0).1 S1024x256.size (by sl_kernel_rfl) y
/-- What case C leaves in the output window's buffer. -/
def out1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) : Vec F S1024x256 .bf16 :=
  VO1_3.read (Elt F) (VO1_3.writes (Elt F) VO1_3.junk (kernelRun1_C (F := F) c i arg2 harg2 arg3 harg3 arg4 harg4 arg5 harg5 arg6 harg6 hc0 hc1 x0 x1 x2 xs0).1)
theorem scover1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) (y : S1024x256.Idx) :
    ∃ pc ∈ (kernelRun1_C (F := F) c i arg2 harg2 arg3 harg3 arg4 harg4 arg5 harg5 arg6 harg6 hc0 hc1 x0 x1 x2 xs0).2.1, y ∈ pc.1.set :=
  View.cover_of_tiledL (kernelRun1_C (F := F) c i arg2 harg2 arg3 harg3 arg4 harg4 arg5 harg5 arg6 harg6 hc0 hc1 x0 x1 x2 xs0).2.1 S1024x256.size (by sl_kernel_rfl) y
/-- What case C leaves in the accumulator. -/
def sout1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) : Vec F S1024x256 .f32 :=
  VS1.read (Elt F) (VS1.writes (Elt F) VS1.junk (kernelRun1_C (F := F) c i arg2 harg2 arg3 harg3 arg4 harg4 arg5 harg5 arg6 harg6 hc0 hc1 x0 x1 x2 xs0).2.1)

/-- Where nothing is stored into the output window its buffer's contents are never consulted: a placeholder. -/
def noOut1 : Vec F S1024x256 .bf16 := VO1_3.read (Elt F) (VO1_3.writes (Elt F) VO1_3.junk [])

section Region1
variable (V : (c : Dev nD) → (b : Ref sig .tc) → Buf (Elt F) ((c : Thread nD τ).loc b))

/-- The output window's buffer and the accumulator after the body at position `n`, by recursion on the position. -/
def outsAt1 (c : Dev nD) : (n : ℕ) → n < cfg1.N → Vec F S1024x256 .bf16 × Vec F S1024x256 .f32
  | 0, hn => (noOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (noOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (noOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (noOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (noOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the scoped buffers no window stages at anything; afterwards the
    accumulator at what the point before left in it, beside the remainder of those buffers. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ rest1 (F := F) c) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 (F := F) c) := by
  cases n with
  | zero => exact absurd rfl hz
  | succ n => rfl

/-- The region's proof data on core `c`: the arrays as found; after the body each input's buffer at its block, the
    output's at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the closed forms select the case; its run applies with the accumulator as the invariant
    holds it, and hands the accumulator back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS0, HR⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_A c _ _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_A c _ _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR]
      · isplitl [HS0]
        · unfold owns; iexists _; isplitr
          swap; · iexact HS0
          ipureintro; exact View.read_writes_of_cover _ _ _ _ _ (scover1_C c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_B c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The body obligation at every point. -/
theorem body_obligation1 (c : Dev nD) : BodyObligation (dat1 (F := F) V c) (defs₀ (F := F)) Variants.none () Set.univ := fun t => by
  rw [bigSep_W1, bigSep_W1]
  exact sound_body1 V c t

/-- The entry invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the entry invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  unfold rest1
  iintro ⟨HS0, HR⟩
  iapply HR
  iexists _; iexact HS0

end Region1

end Cert.Kernel.Hand

end
-- ==== Proof.WordLevel.R2Base.lean ====
/-
  Region 2 — the product wavelets · filtered, accumulated over four blocks of 2048 columns per block of 1024 rows — what
  its three control cases share: the blocks of its windows read off the arrays the region finds, the two conditions of
  the body (first block of a row block: the accumulator is reset; last block: the accumulator is stored out) in closed
  form over the 32 grid points, where the output window is idle, and the accumulator scratch taken out of (and put back
  among) the scoped buffers no window stages.
-/
import proofs.«168331_j13383118094872_2_alg».proof.Proof.Gen.Kernel.Launch
import proofs.«168331_j13383118094872_2_alg».proof.Proof.Gen.Kernel.Skeleton
import proofs.«168331_j13383118094872_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region2

/-- The body's first condition: the column-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The body's second condition: the column-block coordinate is the last, 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
/-- Where the accumulator is not stored out the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the output window, through which its contents are stated. -/
abbrev VO2_2 : View sig .tc .vmem S1024x256 .f32 := (Memref.whole cc2_stg2_0 : Memref sig .tc .vmem S1024x256 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x256 .f32 := Memref.whole cc2_scratch0
abbrev VS2 : View sig .tc .vmem S1024x256 .f32 := scM2.view

/-- The scoped buffers no window of this region stages, less the accumulator: whatever, together with the accumulator
    at some contents, makes the region's entry invariant again. -/
def rest2 (c : Dev nD) : sProp 𝕄 :=
  iprop((∃ d, owns (c : Thread nD τ) scM2 fullShare d) -∗ Pipeline.ΦA (U := UR sig nD τ) (Val := Elt F) spec2 c)

/-- The entry invariant hands out the accumulator at some contents beside that remainder. -/
theorem PhiA2_split (c : Dev nD) :
    (Pipeline.ΦA (U := UR sig nD τ) (Val := Elt F) spec2 c : sProp 𝕄) ⊢ iprop((∃ d, owns (c : Thread nD τ) scM2 fullShare d) ∗ rest2 (F := F) c) := by
  unfold rest2 Pipeline.ΦA; rw [scopedRest2_eq]; simp only [scM2, owns_whole]
  iintro ⟨⟨H0, H1, H2, H3, H4, H5, H6, H7, H8, H9, H10, H11, H12, H13, H14⟩, Hg⟩
  isplitl [H14]; · iexact H14
  iintro H14
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

end Cert.Kernel.Hand

end
-- ==== Proof.WordLevel.R2RunA.lean ====
/-
  Region 2, first block of a row block (the column-block coordinate is 0): the body resets the accumulator to zero and
  adds the block's product into it; nothing is stored into the output window. The run finds the pieces the accumulator
  ends with.
-/
import proofs.«168331_j13383118094872_2_alg».proof.Proof.WordLevel.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at anything. -/
noncomputable def kernelRun2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i)
    (x0 : Vec F S1024x2048 .f32) (x1 : Vec F S8192x256 .bf16) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_resident_kernel i arg2 harg2 arg3 harg3 arg4 harg4 arg5 harg5) K } := by
  refine ⟨?_, fun xi2 E K => ?run⟩
  case run =>
    simp only [cc2__matmul_resident_kernel_eq_skeleton]; unfold cc2__matmul_resident_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordLevel.R2RunB.lean ====
/-
  Region 2, a middle block of a row block (the column-block coordinate is 1 or 2): the body adds the block's product
  into the accumulator it finds; nothing is stored into the output window.
-/
import proofs.«168331_j13383118094872_2_alg».proof.Proof.WordLevel.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at what the point before left. -/
noncomputable def kernelRun2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i)
    (x0 : Vec F S1024x2048 .f32) (x1 : Vec F S8192x256 .bf16) (xs0 : Vec F S1024x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_resident_kernel i arg2 harg2 arg3 harg3 arg4 harg4 arg5 harg5) K } := by
  refine ⟨?_, fun xi2 E K => ?run⟩
  case run =>
    simp only [cc2__matmul_resident_kernel_eq_skeleton]; unfold cc2__matmul_resident_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordLevel.R2RunC.lean ====
/-
  Region 2, last block of a row block (the column-block coordinate is 3): the body adds the block's product into the
  accumulator it finds and stores the accumulator into the output window.
-/
import proofs.«168331_j13383118094872_2_alg».proof.Proof.WordLevel.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output window's buffer and the accumulator end with in this case, with the body's triple: inputs kept,
    the output entered at anything, the accumulator at what the point before left. -/
noncomputable def kernelRun2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i)
    (x0 : Vec F S1024x2048 .f32) (x1 : Vec F S8192x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_resident_kernel i arg2 harg2 arg3 harg3 arg4 harg4 arg5 harg5) K } := by
  refine ⟨?_, ?_, fun E K => ?run⟩
  case run =>
    simp only [cc2__matmul_resident_kernel_eq_skeleton]; unfold cc2__matmul_resident_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.WordLevel.R2Frame.lean ====
/-
  Region 2's proof data. After the body at grid point n (row block n / 4, column block n % 4) the accumulator holds what
  the point's case leaves in it — at a first block the reset-and-add of the point's blocks, otherwise the add over what
  the point before left — and at a last block the output window's buffer holds the accumulator; between points the
  invariant keeps the accumulator at exactly that. From this: the body obligation at every point.
-/
import proofs.«168331_j13383118094872_2_alg».proof.Proof.WordLevel.R2RunA
import proofs.«168331_j13383118094872_2_alg».proof.Proof.WordLevel.R2RunB
import proofs.«168331_j13383118094872_2_alg».proof.Proof.WordLevel.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces cover the accumulator. -/
theorem scover2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i) (x0 : Vec F S1024x2048 .f32) (x1 : Vec F S8192x256 .bf16) (y : S1024x256.Idx) :
    ∃ pc ∈ (kernelRun2_A (F := F) c i arg2 harg2 arg3 harg3 arg4 harg4 arg5 harg5 hc0 hc1 x0 x1).1, y ∈ pc.1.set :=
  View.cover_of_tiledL (kernelRun2_A (F := F) c i arg2 harg2 arg3 harg3 arg4 harg4 arg5 harg5 hc0 hc1 x0 x1).1 S1024x256.size (by sl_kernel_rfl) y
/-- What case A leaves in the accumulator. -/
def sout2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i) (x0 : Vec F S1024x2048 .f32) (x1 : Vec F S8192x256 .bf16) : Vec F S1024x256 .f32 :=
  VS2.read (Elt F) (VS2.writes (Elt F) VS2.junk (kernelRun2_A (F := F) c i arg2 harg2 arg3 harg3 arg4 harg4 arg5 harg5 hc0 hc1 x0 x1).1)

theorem scover2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i) (x0 : Vec F S1024x2048 .f32) (x1 : Vec F S8192x256 .bf16) (xs0 : Vec F S1024x256 .f32) (y : S1024x256.Idx) :
    ∃ pc ∈ (kernelRun2_B (F := F) c i arg2 harg2 arg3 harg3 arg4 harg4 arg5 harg5 hc0 hc1 x0 x1 xs0).1, y ∈ pc.1.set :=
  View.cover_of_tiledL (kernelRun2_B (F := F) c i arg2 harg2 arg3 harg3 arg4 harg4 arg5 harg5 hc0 hc1 x0 x1 xs0).1 S1024x256.size (by sl_kernel_rfl) y
/-- What case B leaves in the accumulator, over what it found there. -/
def sout2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i) (x0 : Vec F S1024x2048 .f32) (x1 : Vec F S8192x256 .bf16) (xs0 : Vec F S1024x256 .f32) : Vec F S1024x256 .f32 :=
  VS2.read (Elt F) (VS2.writes (Elt F) VS2.junk (kernelRun2_B (F := F) c i arg2 harg2 arg3 harg3 arg4 harg4 arg5 harg5 hc0 hc1 x0 x1 xs0).1)

theorem cover2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) (y : S1024x256.Idx) :
    ∃ pc ∈ (kernelRun2_C (F := F) c i arg2 harg2 arg3 harg3 arg4 harg4 arg5 harg5 hc0 hc1 x0 x1 xs0).1, y ∈ pc.1.set :=
  View.cover_of_tiledL (kernelRun2_C (F := F) c i arg2 harg2 arg3 harg3 arg4 harg4 arg5 harg5 hc0 hc1 x0 x1 xs0).1 S1024x256.size (by sl_kernel_rfl) y
/-- What case C leaves in the output window's buffer. -/
def out2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) : Vec F S1024x256 .f32 :=
  VO2_2.read (Elt F) (VO2_2.writes (Elt F) VO2_2.junk (kernelRun2_C (F := F) c i arg2 harg2 arg3 harg3 arg4 harg4 arg5 harg5 hc0 hc1 x0 x1 xs0).1)
theorem scover2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) (y : S1024x256.Idx) :
    ∃ pc ∈ (kernelRun2_C (F := F) c i arg2 harg2 arg3 harg3 arg4 harg4 arg5 harg5 hc0 hc1 x0 x1 xs0).2.1, y ∈ pc.1.set :=
  View.cover_of_tiledL (kernelRun2_C (F := F) c i arg2 harg2 arg3 harg3 arg4 harg4 arg5 harg5 hc0 hc1 x0 x1 xs0).2.1 S1024x256.size (by sl_kernel_rfl) y
/-- What case C leaves in the accumulator. -/
def sout2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) : Vec F S1024x256 .f32 :=
  VS2.read (Elt F) (VS2.writes (Elt F) VS2.junk (kernelRun2_C (F := F) c i arg2 harg2 arg3 harg3 arg4 harg4 arg5 harg5 hc0 hc1 x0 x1 xs0).2.1)

/-- Where nothing is stored into the output window its buffer's contents are never consulted: a placeholder. -/
def noOut2 : Vec F S1024x256 .f32 := VO2_2.read (Elt F) (VO2_2.writes (Elt F) VO2_2.junk [])

section Region2
variable (V : (c : Dev nD) → (b : Ref sig .tc) → Buf (Elt F) ((c : Thread nD τ).loc b))

/-- The output window's buffer and the accumulator after the body at position `n`, by recursion on the position. -/
def outsAt2 (c : Dev nD) : (n : ℕ) → n < cfg2.N → Vec F S1024x256 .f32 × Vec F S1024x256 .f32
  | 0, hn => (noOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      (noOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (noOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (noOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (noOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the scoped buffers no window stages at anything; afterwards the
    accumulator at what the point before left in it, beside the remainder of those buffers. -/
def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ rest2 (F := F) c)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare ((outsAt2 V c n hn).2) ∗ rest2 (F := F) c) := rfl
theorem PhiS2_pos (c : Dev nD) (n : ℕ) (h : n ≤ cfg2.N) (hz : n ≠ 0) :
    PhiS2 V c n h = iprop(owns (c : Thread nD τ) scM2 fullShare ((outsAt2 V c (n - 1) (by omega)).2) ∗ rest2 (F := F) c) := by
  cases n with
  | zero => exact absurd rfl hz
  | succ n => rfl

/-- The region's proof data on core `c`: the arrays as found; after the body each input's buffer at its block, the
    output's at `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the closed forms select the case; its run applies with the accumulator as the invariant
    holds it, and hands the accumulator back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    by_cases hz : t.val = 0
    · rw [PhiS2_castSucc V c t, PhiS2_zero V c _ _ hz]
      iintro ⟨HΦ, Ho, ⟨%d0, H0⟩, ⟨%d1, H1⟩, ⟨%d2, H2⟩⟩
      ihave HΦ' := (PhiA2_split (F := F) c) $$ HΦ
      icases HΦ' with ⟨HS0, HR⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_A c _ _ _ _ _ _ _ _ _ _ _ _ _)
        iexact HR
      isplitl [Ho]; · iexact Ho
      isplitl [H0]; · iexact H0
      isplitl [H1]; · iexact H1
      iexists _; iexact H2
    · rw [PhiS2_castSucc V c t, PhiS2_pos V c _ _ hz]
      iintro ⟨⟨HS0, HR⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_A c _ _ _ _ _ _ _ _ _ _ _ _ _)
        iexact HR
      isplitl [Ho]; · iexact Ho
      isplitl [H0]; · iexact H0
      isplitl [H1]; · iexact H1
      iexists _; iexact H2
  · have hz : t.val ≠ 0 := by omega
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR]
      · isplitl [HS0]
        · unfold owns; iexists _; isplitr
          swap; · iexact HS0
          ipureintro; exact View.read_writes_of_cover _ _ _ _ _ (scover2_C c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_B c _ _ _ _ _ _ _ _ _ _ _ _ _ _)
        iexact HR
      isplitl [Ho]; · iexact Ho
      isplitl [H0]; · iexact H0
      isplitl [H1]; · iexact H1
      iexists _; iexact H2

/-- The body obligation at every point. -/
theorem body_obligation2 (c : Dev nD) : BodyObligation (dat2 (F := F) V c) (defs₀ (F := F)) Variants.none () Set.univ := fun t => by
  rw [bigSep_W2, bigSep_W2]
  exact sound_body2 V c t

/-- The entry invariant is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the entry invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega)]
  unfold rest2
  iintro ⟨HS0, HR⟩
  iapply HR
  iexists _; iexact HS0

end Region2

end Cert.Kernel.Hand

end
-- ==== Proof.WordLevel.KernelRun.lean ====
/-
  The three regions in sequence. Between @main's items every unscoped buffer of a core holds: at launch the memory; after
  region 0 the same with the transformed features written into its result array; after the one host reshape (the filter
  as a column) that too; after region 1 the filtered array; after region 2 the output. Each region is entered from the
  thread state "every unscoped buffer at the current contents" and left at the next one, its body obligation the region's
  own; from the chain: every weakly fair execution terminates, nothing faults, and every unscoped buffer ends at the last
  contents — in particular each argument array as launched and the result array at what region 2 leaves.
-/
import proofs.«168331_j13383118094872_2_alg».proof.Proof.WordLevel.R0Frame
import proofs.«168331_j13383118094872_2_alg».proof.Proof.WordLevel.R1Frame
import proofs.«168331_j13383118094872_2_alg».proof.Proof.WordLevel.R2Frame
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host reshape. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After region 2. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## No item writes an argument; the result array is what region 2 leaves -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 0).trans (((dat1 (V2 m) c).arrAt_in 0 rfl _).trans (A_eq1 (V2 m) c 0))
    _ = W1 m c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W0 m c (Proc.devRef .tc main_arg3) := (W1_arr m c 1).trans (((dat0 (V0 m) c).arrAt_in 1 rfl _).trans (A_eq0 (V0 m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W0 m c (Proc.devRef .tc main_arg4) := W1_of_ne m c main_arg4 (by decide)
    _ = m ((c : Thread nD τ).loc main_arg4) := rfl
/-- The result array ends at what region 2's pipeline leaves in its output window's array. -/
theorem W4_main_v3 (c : Dev nD) : W4 m c (Proc.devRef .tc main_v3) = (dat2 (V3 m) c).arrAt 2 cfg2.N := W4_arr m c 2

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W0`, left at `W1`. Its arrays are split
    out of the unscoped buffers and put back at their exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at their exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := hout1 (V2 m) c
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at their exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (pdats m 2 c).Φ (Fin.last _) ⊢ (iprop(Pipeline.scopedRest spec2 c ∗ ∃ r, prngReg c r) : sProp 𝕄) := hout2 (V3 m) c
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .region (reg2 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

/-- The same run with the result array named: it ends at what region 2 leaves. -/
theorem run_result (ρ : Dev nD → PrngReg) : θ_run defs (onTc (τ := τ) (main (F := F))) ⟨m, fun _ => 0, ρ⟩ (fun r => ∀ c : Dev nD,
      r.2.mem ((c.tc : Thread nD τ).loc main_v3) = (dat2 (V3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_main_v3 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.Kernel.Hand

end
-- ==== Proof.R0Base.lean ====
/-
  Region 0 — the product features · weight, one block of 2048 rows per grid point, the whole 256-term contraction in one
  step — what its single control case needs: the blocks of its windows read off the arrays the region finds, the two
  conditions of the body (both hold at every point: the accumulator is reset, added to, and stored out), and the
  accumulator scratch taken out of (and put back among) the scoped buffers no window stages.
-/
import proofs.«168331_j13383118094872_2_alg».proof.Proof.Gen.KernelIdeal.Launch
import proofs.«168331_j13383118094872_2_alg».proof.Proof.Gen.KernelIdeal.Skeleton
import proofs.«168331_j13383118094872_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's first condition: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) :=
  (by decide +kernel : ∀ t : Fin grid0.N, cond0_0 (grid0.coords t))
/-- The body's second condition: the column-block coordinate is the last, which here is 0 again. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated. -/
abbrev VO0_2 : View sig .tc .vmem S2048x256 .bf16 := (Memref.whole cc0_stg2_0 : Memref sig .tc .vmem S2048x256 .bf16).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x256 .f32 := Memref.whole cc0_scratch0
abbrev VS0 : View sig .tc .vmem S2048x256 .f32 := scM0.view

/-- The scoped buffers no window of this region stages, less the accumulator: whatever, together with the accumulator
    at some contents, makes the region's entry invariant again. -/
def rest0 (c : Dev nD) : sProp 𝕄 :=
  iprop((∃ d, owns (c : Thread nD τ) scM0 fullShare d) -∗ Pipeline.ΦA (U := UR sig nD τ) (Val := Elt F) spec0 c)

/-- The entry invariant hands out the accumulator at some contents beside that remainder. -/
theorem PhiA0_split (c : Dev nD) :
    (Pipeline.ΦA (U := UR sig nD τ) (Val := Elt F) spec0 c : sProp 𝕄) ⊢ iprop((∃ d, owns (c : Thread nD τ) scM0 fullShare d) ∗ rest0 (F := F) c) := by
  unfold rest0 Pipeline.ΦA; rw [scopedRest0_eq]; simp only [scM0, owns_whole]
  iintro ⟨⟨H0, H1, H2, H3, H4, H5, H6, H7, H8, H9, H10, H11, H12, H13, H14⟩, Hg⟩
  isplitl [H0]; · iexact H0
  iintro H0
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

end Cert.KernelIdeal.Hand

end
-- ==== Proof.R0Run.lean ====
/-
  Region 0's one case (both conditions hold): the body resets the accumulator to zero, adds the block's product into it
  and stores it out. The run finds the pieces the output window's buffer and the accumulator end with.
-/
import proofs.«168331_j13383118094872_2_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output window's buffer and the accumulator end with, with the body's triple: inputs kept, the output and
    the accumulator entered at anything. -/
noncomputable def kernelRun0_D (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .bf16) (harg4 : arg4.IsWhole) (arg5 : Memref sig .tc .vmem S2048x256 .f32) (harg5 : arg5.IsWhole) (hc0 : cond0_0 i) (hc1 : cond0_1 i)
    (x0 : Vec F S2048x256 .f32) (x1 : Vec F S256x256 .f32) :
    Σ' (L2 : List (View.Piece (Elt F) S2048x256 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R0Frame.lean ====
/-
  Region 0's proof data. Every grid point is a whole contraction: the body resets the accumulator, adds the point's
  product and stores it out, so after the body the output window's buffer holds what that one case leaves of the point's
  two input blocks, and the invariant between points is the entry invariant (the accumulator at anything). From this:
  the body obligation at every point.
-/
import proofs.«168331_j13383118094872_2_alg».proof.Proof.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The case's pieces cover the output window's block. -/
theorem cover0_D (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .bf16) (harg4 : arg4.IsWhole) (arg5 : Memref sig .tc .vmem S2048x256 .f32) (harg5 : arg5.IsWhole) (hc0 : cond0_0 i) (hc1 : cond0_1 i) (x0 : Vec F S2048x256 .f32) (x1 : Vec F S256x256 .f32) (y : S2048x256.Idx) :
    ∃ pc ∈ (kernelRun0_D (F := F) c i arg2 harg2 arg3 harg3 arg4 harg4 arg5 harg5 hc0 hc1 x0 x1).1, y ∈ pc.1.set :=
  View.cover_of_tiledL (kernelRun0_D (F := F) c i arg2 harg2 arg3 harg3 arg4 harg4 arg5 harg5 hc0 hc1 x0 x1).1 S2048x256.size (by sl_kernel_rfl) y
/-- What the case leaves in the output window's buffer. -/
def out0_D (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .bf16) (harg4 : arg4.IsWhole) (arg5 : Memref sig .tc .vmem S2048x256 .f32) (harg5 : arg5.IsWhole) (hc0 : cond0_0 i) (hc1 : cond0_1 i) (x0 : Vec F S2048x256 .f32) (x1 : Vec F S256x256 .f32) : Vec F S2048x256 .bf16 :=
  VO0_2.read (Elt F) (VO0_2.writes (Elt F) VO0_2.junk (kernelRun0_D (F := F) c i arg2 harg2 arg3 harg3 arg4 harg4 arg5 harg5 hc0 hc1 x0 x1).1)

section Region0
variable (V : (c : Dev nD) → (b : Ref sig .tc) → Buf (Elt F) ((c : Thread nD τ).loc b))

/-- The region's proof data on core `c`: the arrays as found; after the body each input's buffer at its block, the
    output's at what the case leaves of the point's blocks; the entry invariant throughout; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the one case's run, the accumulator taken out of the entry invariant at anything and put back
    at whatever the run leaves in it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_D; (try dsimp only)
  iintro ⟨HΦ, Ho, ⟨%d0, H0⟩, ⟨%d1, H1⟩, ⟨%d2, H2⟩⟩
  ihave HΦ' := (PhiA0_split (F := F) c) $$ HΦ
  icases HΦ' with ⟨HS0, HR⟩
  iapply ((kernelRun0_D c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR]
  · unfold rest0
    iapply HR
    iexists _; unfold owns; iexists _; isplitr
    swap; · iexact HS0
    ipureintro; rfl
  isplitl [Ho]; · iexact Ho
  isplitl [H0]; · iexact H0
  isplitl [H1]; · iexact H1
  unfold owns; iexists _; isplitr
  swap; · iexact H2
  ipureintro; exact View.read_writes_of_cover _ _ _ _ _ (cover0_D c _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Base.lean ====
/-
  Region 1 — the row-scaled product filt ⊙ (wavelets_inv · transformed), accumulated over four blocks of 2048 columns per
  block of 1024 rows — what its three control cases share: the blocks of its windows read off the arrays the region
  finds, the two conditions of the body (first block of a row block: the accumulator is reset; last block: the scaled
  accumulator is stored) in closed form over the 32 grid points, where the output window is idle, and the accumulator
  scratch taken out of (and put back among) the scoped buffers no window stages.
-/
import proofs.«168331_j13383118094872_2_alg».proof.Proof.Gen.KernelIdeal.Launch
import proofs.«168331_j13383118094872_2_alg».proof.Proof.Gen.KernelIdeal.Skeleton
import proofs.«168331_j13383118094872_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The body's first condition: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The body's second condition: the column-block coordinate is the last, 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the scaled accumulator is not stored the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the output window, through which its contents are stated. -/
abbrev VO1_3 : View sig .tc .vmem S1024x256 .bf16 := (Memref.whole cc1_stg3_0 : Memref sig .tc .vmem S1024x256 .bf16).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x256 .f32 := Memref.whole cc1_scratch0
abbrev VS1 : View sig .tc .vmem S1024x256 .f32 := scM1.view

/-- The scoped buffers no window of this region stages, less the accumulator: whatever, together with the accumulator
    at some contents and the generator register, makes the region's entry invariant again. -/
def rest1 (c : Dev nD) : sProp 𝕄 :=
  iprop((∃ d, owns (c : Thread nD τ) scM1 fullShare d) -∗ Pipeline.ΦA (U := UR sig nD τ) (Val := Elt F) spec1 c)

/-- The entry invariant hands out the accumulator at some contents beside that remainder. -/
theorem PhiA1_split (c : Dev nD) :
    (Pipeline.ΦA (U := UR sig nD τ) (Val := Elt F) spec1 c : sProp 𝕄) ⊢ iprop((∃ d, owns (c : Thread nD τ) scM1 fullShare d) ∗ rest1 (F := F) c) := by
  unfold rest1 Pipeline.ΦA; rw [scopedRest1_eq]; simp only [scM1, owns_whole]
  iintro ⟨⟨H0, H1, H2, H3, H4, H5, H6, H7, H8, H9, H10, H11, H12⟩, Hg⟩
  isplitl [H6]; · iexact H6
  iintro H6
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

end Cert.KernelIdeal.Hand

end
-- ==== Proof.R1RunA.lean ====
/-
  Region 1, first block of a row block (the column-block coordinate is 0): the body resets the accumulator to zero and
  adds the block's product into it; nothing is stored into the output window. The run finds the pieces the accumulator
  ends with.
-/
import proofs.«168331_j13383118094872_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at anything. -/
noncomputable def kernelRun1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) :
    { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_resident_kernel i arg2 harg2 arg3 harg3 arg4 harg4 arg5 harg5 arg6 harg6) K } := by
  refine ⟨?_, fun xi3 E K => ?run⟩
  case run =>
    simp only [cc1__matmul_scale_resident_kernel_eq_skeleton]; unfold cc1__matmul_scale_resident_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunB.lean ====
/-
  Region 1, a middle block of a row block (the column-block coordinate is 1 or 2): the body adds the block's product
  into the accumulator it finds; nothing is stored into the output window.
-/
import proofs.«168331_j13383118094872_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at what the point before left. -/
noncomputable def kernelRun1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) :
    { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_resident_kernel i arg2 harg2 arg3 harg3 arg4 harg4 arg5 harg5 arg6 harg6) K } := by
  refine ⟨?_, fun xi3 E K => ?run⟩
  case run =>
    simp only [cc1__matmul_scale_resident_kernel_eq_skeleton]; unfold cc1__matmul_scale_resident_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunC.lean ====
/-
  Region 1, last block of a row block (the column-block coordinate is 3): the body adds the block's product into the
  accumulator it finds and stores the accumulator, scaled row by row, into the output window.
-/
import proofs.«168331_j13383118094872_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output window's buffer and the accumulator end with in this case, with the body's triple: inputs kept,
    the output entered at anything, the accumulator at what the point before left. -/
noncomputable def kernelRun1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) :
    Σ' (L3 : List (View.Piece (Elt F) S1024x256 .bf16)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_resident_kernel i arg2 harg2 arg3 harg3 arg4 harg4 arg5 harg5 arg6 harg6) K } := by
  refine ⟨?_, ?_, fun E K => ?run⟩
  case run =>
    simp only [cc1__matmul_scale_resident_kernel_eq_skeleton]; unfold cc1__matmul_scale_resident_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R1Frame.lean ====
/-
  Region 1's proof data. After the body at grid point n (row block n / 4, column block n % 4) the accumulator holds what
  the point's case leaves in it — at a first block the reset-and-add of the point's blocks, otherwise the add over what
  the point before left — and at a last block the output window's buffer holds the scaled accumulator; between points
  the invariant keeps the accumulator at exactly that. From this: the body obligation at every point.
-/
import proofs.«168331_j13383118094872_2_alg».proof.Proof.R1RunA
import proofs.«168331_j13383118094872_2_alg».proof.Proof.R1RunB
import proofs.«168331_j13383118094872_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces cover the accumulator. -/
theorem scover1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i) (x0 : Vec F S1024x2048 .f32) (x1 : Vec F S8192x256 .bf16) (x2 : Vec F S1024x1 .f32) (y : S1024x256.Idx) :
    ∃ pc ∈ (kernelRun1_A (F := F) c i arg2 harg2 arg3 harg3 arg4 harg4 arg5 harg5 arg6 harg6 hc0 hc1 x0 x1 x2).1, y ∈ pc.1.set :=
  View.cover_of_tiledL (kernelRun1_A (F := F) c i arg2 harg2 arg3 harg3 arg4 harg4 arg5 harg5 arg6 harg6 hc0 hc1 x0 x1 x2).1 S1024x256.size (by sl_kernel_rfl) y
/-- What case A leaves in the accumulator. -/
def sout1_A (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i) (x0 : Vec F S1024x2048 .f32) (x1 : Vec F S8192x256 .bf16) (x2 : Vec F S1024x1 .f32) : Vec F S1024x256 .f32 :=
  VS1.read (Elt F) (VS1.writes (Elt F) VS1.junk (kernelRun1_A (F := F) c i arg2 harg2 arg3 harg3 arg4 harg4 arg5 harg5 arg6 harg6 hc0 hc1 x0 x1 x2).1)

theorem scover1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i) (x0 : Vec F S1024x2048 .f32) (x1 : Vec F S8192x256 .bf16) (x2 : Vec F S1024x1 .f32) (xs0 : Vec F S1024x256 .f32) (y : S1024x256.Idx) :
    ∃ pc ∈ (kernelRun1_B (F := F) c i arg2 harg2 arg3 harg3 arg4 harg4 arg5 harg5 arg6 harg6 hc0 hc1 x0 x1 x2 xs0).1, y ∈ pc.1.set :=
  View.cover_of_tiledL (kernelRun1_B (F := F) c i arg2 harg2 arg3 harg3 arg4 harg4 arg5 harg5 arg6 harg6 hc0 hc1 x0 x1 x2 xs0).1 S1024x256.size (by sl_kernel_rfl) y
/-- What case B leaves in the accumulator, over what it found there. -/
def sout1_B (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i) (x0 : Vec F S1024x2048 .f32) (x1 : Vec F S8192x256 .bf16) (x2 : Vec F S1024x1 .f32) (xs0 : Vec F S1024x256 .f32) : Vec F S1024x256 .f32 :=
  VS1.read (Elt F) (VS1.writes (Elt F) VS1.junk (kernelRun1_B (F := F) c i arg2 harg2 arg3 harg3 arg4 harg4 arg5 harg5 arg6 harg6 hc0 hc1 x0 x1 x2 xs0).1)

theorem cover1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) (y : S1024x256.Idx) :
    ∃ pc ∈ (kernelRun1_C (F := F) c i arg2 harg2 arg3 harg3 arg4 harg4 arg5 harg5 arg6 harg6 hc0 hc1 x0 x1 x2 xs0).1, y ∈ pc.1.set :=
  View.cover_of_tiledL (kernelRun1_C (F := F) c i arg2 harg2 arg3 harg3 arg4 harg4 arg5 harg5 arg6 harg6 hc0 hc1 x0 x1 x2 xs0).1 S1024x256.size (by sl_kernel_rfl) y
/-- What case C leaves in the output window's buffer. -/
def out1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) : Vec F S1024x256 .bf16 :=
  VO1_3.read (Elt F) (VO1_3.writes (Elt F) VO1_3.junk (kernelRun1_C (F := F) c i arg2 harg2 arg3 harg3 arg4 harg4 arg5 harg5 arg6 harg6 hc0 hc1 x0 x1 x2 xs0).1)
theorem scover1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) (y : S1024x256.Idx) :
    ∃ pc ∈ (kernelRun1_C (F := F) c i arg2 harg2 arg3 harg3 arg4 harg4 arg5 harg5 arg6 harg6 hc0 hc1 x0 x1 x2 xs0).2.1, y ∈ pc.1.set :=
  View.cover_of_tiledL (kernelRun1_C (F := F) c i arg2 harg2 arg3 harg3 arg4 harg4 arg5 harg5 arg6 harg6 hc0 hc1 x0 x1 x2 xs0).2.1 S1024x256.size (by sl_kernel_rfl) y
/-- What case C leaves in the accumulator. -/
def sout1_C (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) : Vec F S1024x256 .f32 :=
  VS1.read (Elt F) (VS1.writes (Elt F) VS1.junk (kernelRun1_C (F := F) c i arg2 harg2 arg3 harg3 arg4 harg4 arg5 harg5 arg6 harg6 hc0 hc1 x0 x1 x2 xs0).2.1)

/-- Where nothing is stored into the output window its buffer's contents are never consulted: a placeholder. -/
def noOut1 : Vec F S1024x256 .bf16 := VO1_3.read (Elt F) (VO1_3.writes (Elt F) VO1_3.junk [])

section Region1
variable (V : (c : Dev nD) → (b : Ref sig .tc) → Buf (Elt F) ((c : Thread nD τ).loc b))

/-- The output window's buffer and the accumulator after the body at position `n`, by recursion on the position. -/
def outsAt1 (c : Dev nD) : (n : ℕ) → n < cfg1.N → Vec F S1024x256 .bf16 × Vec F S1024x256 .f32
  | 0, hn => (noOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (noOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (noOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (noOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (noOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the scoped buffers no window stages at anything; afterwards the
    accumulator at what the point before left in it, beside the remainder of those buffers. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ rest1 (F := F) c) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 (F := F) c) := by
  cases n with
  | zero => exact absurd rfl hz
  | succ n => rfl

/-- The region's proof data on core `c`: the arrays as found; after the body each input's buffer at its block, the
    output's at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the closed forms select the case; its run applies with the accumulator as the invariant
    holds it, and hands the accumulator back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS0, HR⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_A c _ _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_A c _ _ _ _ _ _ _ _ _ _ _ _ _ _ _ _)
        iexact HR
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR]
      · isplitl [HS0]
        · unfold owns; iexists _; isplitr
          swap; · iexact HS0
          ipureintro; exact View.read_writes_of_cover _ _ _ _ _ (scover1_C c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨HS0, HR⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR]
      · isplitl [HS0]
        · unfold owns; iexists _; isplitr
          swap; · iexact HS0
          ipureintro; exact View.read_writes_of_cover _ _ _ _ _ (scover1_B c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The body obligation at every point. -/
theorem body_obligation1 (c : Dev nD) : BodyObligation (dat1 (F := F) V c) (defs₀ (F := F)) Variants.none () Set.univ := fun t => by
  rw [bigSep_W1, bigSep_W1]
  exact sound_body1 V c t

/-- The entry invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the entry invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  unfold rest1
  iintro ⟨HS0, HR⟩
  iapply HR
  iexists _; iexact HS0

end Region1

end Cert.KernelIdeal.Hand

end
-- ==== Proof.R2Base.lean ====
/-
  Region 2 — the product wavelets · filtered, accumulated over four blocks of 2048 columns per block of 1024 rows — what
  its three control cases share: the blocks of its windows read off the arrays the region finds, the two conditions of
  the body (first block of a row block: the accumulator is reset; last block: the accumulator is stored out) in closed
  form over the 32 grid points, where the output window is idle, and the accumulator scratch taken out of (and put back
  among) the scoped buffers no window stages.
-/
import proofs.«168331_j13383118094872_2_alg».proof.Proof.Gen.KernelIdeal.Launch
import proofs.«168331_j13383118094872_2_alg».proof.Proof.Gen.KernelIdeal.Skeleton
import proofs.«168331_j13383118094872_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region2

/-- The body's first condition: the column-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The body's second condition: the column-block coordinate is the last, 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
/-- Where the accumulator is not stored out the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the output window, through which its contents are stated. -/
abbrev VO2_2 : View sig .tc .vmem S1024x256 .f32 := (Memref.whole cc2_stg2_0 : Memref sig .tc .vmem S1024x256 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x256 .f32 := Memref.whole cc2_scratch0
abbrev VS2 : View sig .tc .vmem S1024x256 .f32 := scM2.view

/-- The scoped buffers no window of this region stages, less the accumulator: whatever, together with the accumulator
    at some contents, makes the region's entry invariant again. -/
def rest2 (c : Dev nD) : sProp 𝕄 :=
  iprop((∃ d, owns (c : Thread nD τ) scM2 fullShare d) -∗ Pipeline.ΦA (U := UR sig nD τ) (Val := Elt F) spec2 c)

/-- The entry invariant hands out the accumulator at some contents beside that remainder. -/
theorem PhiA2_split (c : Dev nD) :
    (Pipeline.ΦA (U := UR sig nD τ) (Val := Elt F) spec2 c : sProp 𝕄) ⊢ iprop((∃ d, owns (c : Thread nD τ) scM2 fullShare d) ∗ rest2 (F := F) c) := by
  unfold rest2 Pipeline.ΦA; rw [scopedRest2_eq]; simp only [scM2, owns_whole]
  iintro ⟨⟨H0, H1, H2, H3, H4, H5, H6, H7, H8, H9, H10, H11, H12, H13, H14⟩, Hg⟩
  isplitl [H14]; · iexact H14
  iintro H14
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

end Cert.KernelIdeal.Hand

end
-- ==== Proof.R2RunA.lean ====
/-
  Region 2, first block of a row block (the column-block coordinate is 0): the body resets the accumulator to zero and
  adds the block's product into it; nothing is stored into the output window. The run finds the pieces the accumulator
  ends with.
-/
import proofs.«168331_j13383118094872_2_alg».proof.Proof.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at anything. -/
noncomputable def kernelRun2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i)
    (x0 : Vec F S1024x2048 .f32) (x1 : Vec F S8192x256 .bf16) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_resident_kernel i arg2 harg2 arg3 harg3 arg4 harg4 arg5 harg5) K } := by
  refine ⟨?_, fun xi2 E K => ?run⟩
  case run =>
    simp only [cc2__matmul_resident_kernel_eq_skeleton]; unfold cc2__matmul_resident_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R2RunB.lean ====
/-
  Region 2, a middle block of a row block (the column-block coordinate is 1 or 2): the body adds the block's product
  into the accumulator it finds; nothing is stored into the output window.
-/
import proofs.«168331_j13383118094872_2_alg».proof.Proof.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with in this case, with the body's triple: inputs kept, the idle output handed back
    untouched, the accumulator entered at what the point before left. -/
noncomputable def kernelRun2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i)
    (x0 : Vec F S1024x2048 .f32) (x1 : Vec F S8192x256 .bf16) (xs0 : Vec F S1024x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_resident_kernel i arg2 harg2 arg3 harg3 arg4 harg4 arg5 harg5) K } := by
  refine ⟨?_, fun xi2 E K => ?run⟩
  case run =>
    simp only [cc2__matmul_resident_kernel_eq_skeleton]; unfold cc2__matmul_resident_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R2RunC.lean ====
/-
  Region 2, last block of a row block (the column-block coordinate is 3): the body adds the block's product into the
  accumulator it finds and stores the accumulator into the output window.
-/
import proofs.«168331_j13383118094872_2_alg».proof.Proof.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output window's buffer and the accumulator end with in this case, with the body's triple: inputs kept,
    the output entered at anything, the accumulator at what the point before left. -/
noncomputable def kernelRun2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i)
    (x0 : Vec F S1024x2048 .f32) (x1 : Vec F S8192x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_resident_kernel i arg2 harg2 arg3 harg3 arg4 harg4 arg5 harg5) K } := by
  refine ⟨?_, ?_, fun E K => ?run⟩
  case run =>
    simp only [cc2__matmul_resident_kernel_eq_skeleton]; unfold cc2__matmul_resident_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R2Frame.lean ====
/-
  Region 2's proof data. After the body at grid point n (row block n / 4, column block n % 4) the accumulator holds what
  the point's case leaves in it — at a first block the reset-and-add of the point's blocks, otherwise the add over what
  the point before left — and at a last block the output window's buffer holds the accumulator; between points the
  invariant keeps the accumulator at exactly that. From this: the body obligation at every point.
-/
import proofs.«168331_j13383118094872_2_alg».proof.Proof.R2RunA
import proofs.«168331_j13383118094872_2_alg».proof.Proof.R2RunB
import proofs.«168331_j13383118094872_2_alg».proof.Proof.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces cover the accumulator. -/
theorem scover2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i) (x0 : Vec F S1024x2048 .f32) (x1 : Vec F S8192x256 .bf16) (y : S1024x256.Idx) :
    ∃ pc ∈ (kernelRun2_A (F := F) c i arg2 harg2 arg3 harg3 arg4 harg4 arg5 harg5 hc0 hc1 x0 x1).1, y ∈ pc.1.set :=
  View.cover_of_tiledL (kernelRun2_A (F := F) c i arg2 harg2 arg3 harg3 arg4 harg4 arg5 harg5 hc0 hc1 x0 x1).1 S1024x256.size (by sl_kernel_rfl) y
/-- What case A leaves in the accumulator. -/
def sout2_A (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i) (x0 : Vec F S1024x2048 .f32) (x1 : Vec F S8192x256 .bf16) : Vec F S1024x256 .f32 :=
  VS2.read (Elt F) (VS2.writes (Elt F) VS2.junk (kernelRun2_A (F := F) c i arg2 harg2 arg3 harg3 arg4 harg4 arg5 harg5 hc0 hc1 x0 x1).1)

theorem scover2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i) (x0 : Vec F S1024x2048 .f32) (x1 : Vec F S8192x256 .bf16) (xs0 : Vec F S1024x256 .f32) (y : S1024x256.Idx) :
    ∃ pc ∈ (kernelRun2_B (F := F) c i arg2 harg2 arg3 harg3 arg4 harg4 arg5 harg5 hc0 hc1 x0 x1 xs0).1, y ∈ pc.1.set :=
  View.cover_of_tiledL (kernelRun2_B (F := F) c i arg2 harg2 arg3 harg3 arg4 harg4 arg5 harg5 hc0 hc1 x0 x1 xs0).1 S1024x256.size (by sl_kernel_rfl) y
/-- What case B leaves in the accumulator, over what it found there. -/
def sout2_B (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i) (x0 : Vec F S1024x2048 .f32) (x1 : Vec F S8192x256 .bf16) (xs0 : Vec F S1024x256 .f32) : Vec F S1024x256 .f32 :=
  VS2.read (Elt F) (VS2.writes (Elt F) VS2.junk (kernelRun2_B (F := F) c i arg2 harg2 arg3 harg3 arg4 harg4 arg5 harg5 hc0 hc1 x0 x1 xs0).1)

theorem cover2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) (y : S1024x256.Idx) :
    ∃ pc ∈ (kernelRun2_C (F := F) c i arg2 harg2 arg3 harg3 arg4 harg4 arg5 harg5 hc0 hc1 x0 x1 xs0).1, y ∈ pc.1.set :=
  View.cover_of_tiledL (kernelRun2_C (F := F) c i arg2 harg2 arg3 harg3 arg4 harg4 arg5 harg5 hc0 hc1 x0 x1 xs0).1 S1024x256.size (by sl_kernel_rfl) y
/-- What case C leaves in the output window's buffer. -/
def out2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) : Vec F S1024x256 .f32 :=
  VO2_2.read (Elt F) (VO2_2.writes (Elt F) VO2_2.junk (kernelRun2_C (F := F) c i arg2 harg2 arg3 harg3 arg4 harg4 arg5 harg5 hc0 hc1 x0 x1 xs0).1)
theorem scover2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) (y : S1024x256.Idx) :
    ∃ pc ∈ (kernelRun2_C (F := F) c i arg2 harg2 arg3 harg3 arg4 harg4 arg5 harg5 hc0 hc1 x0 x1 xs0).2.1, y ∈ pc.1.set :=
  View.cover_of_tiledL (kernelRun2_C (F := F) c i arg2 harg2 arg3 harg3 arg4 harg4 arg5 harg5 hc0 hc1 x0 x1 xs0).2.1 S1024x256.size (by sl_kernel_rfl) y
/-- What case C leaves in the accumulator. -/
def sout2_C (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) : Vec F S1024x256 .f32 :=
  VS2.read (Elt F) (VS2.writes (Elt F) VS2.junk (kernelRun2_C (F := F) c i arg2 harg2 arg3 harg3 arg4 harg4 arg5 harg5 hc0 hc1 x0 x1 xs0).2.1)

/-- Where nothing is stored into the output window its buffer's contents are never consulted: a placeholder. -/
def noOut2 : Vec F S1024x256 .f32 := VO2_2.read (Elt F) (VO2_2.writes (Elt F) VO2_2.junk [])

section Region2
variable (V : (c : Dev nD) → (b : Ref sig .tc) → Buf (Elt F) ((c : Thread nD τ).loc b))

/-- The output window's buffer and the accumulator after the body at position `n`, by recursion on the position. -/
def outsAt2 (c : Dev nD) : (n : ℕ) → n < cfg2.N → Vec F S1024x256 .f32 × Vec F S1024x256 .f32
  | 0, hn => (noOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      (noOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (noOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (noOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (noOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the scoped buffers no window stages at anything; afterwards the
    accumulator at what the point before left in it, beside the remainder of those buffers. -/
def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ rest2 (F := F) c)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare ((outsAt2 V c n hn).2) ∗ rest2 (F := F) c) := rfl
theorem PhiS2_pos (c : Dev nD) (n : ℕ) (h : n ≤ cfg2.N) (hz : n ≠ 0) :
    PhiS2 V c n h = iprop(owns (c : Thread nD τ) scM2 fullShare ((outsAt2 V c (n - 1) (by omega)).2) ∗ rest2 (F := F) c) := by
  cases n with
  | zero => exact absurd rfl hz
  | succ n => rfl

/-- The region's proof data on core `c`: the arrays as found; after the body each input's buffer at its block, the
    output's at `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the closed forms select the case; its run applies with the accumulator as the invariant
    holds it, and hands the accumulator back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    by_cases hz : t.val = 0
    · rw [PhiS2_castSucc V c t, PhiS2_zero V c _ _ hz]
      iintro ⟨HΦ, Ho, ⟨%d0, H0⟩, ⟨%d1, H1⟩, ⟨%d2, H2⟩⟩
      ihave HΦ' := (PhiA2_split (F := F) c) $$ HΦ
      icases HΦ' with ⟨HS0, HR⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_A c _ _ _ _ _ _ _ _ _ _ _ _ _)
        iexact HR
      isplitl [Ho]; · iexact Ho
      isplitl [H0]; · iexact H0
      isplitl [H1]; · iexact H1
      iexists _; iexact H2
    · rw [PhiS2_castSucc V c t, PhiS2_pos V c _ _ hz]
      iintro ⟨⟨HS0, HR⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_A c _ _ _ _ _ _ _ _ _ _ _ _ _)
        iexact HR
      isplitl [Ho]; · iexact Ho
      isplitl [H0]; · iexact H0
      isplitl [H1]; · iexact H1
      iexists _; iexact H2
  · have hz : t.val ≠ 0 := by omega
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR]
      · isplitl [HS0]
        · unfold owns; iexists _; isplitr
          swap; · iexact HS0
          ipureintro; exact View.read_writes_of_cover _ _ _ _ _ (scover2_C c _ _ _ _ _ _ _ _ _ _ _ _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨HS0, HR⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR]
      · isplitl [HS0]
        · unfold owns; iexists _; isplitr
          swap; · iexact HS0
          ipureintro; exact View.read_writes_of_cover _ _ _ _ _ (scover2_B c _ _ _ _ _ _ _ _ _ _ _ _ _ _)
        iexact HR
      isplitl [Ho]; · iexact Ho
      isplitl [H0]; · iexact H0
      isplitl [H1]; · iexact H1
      iexists _; iexact H2

/-- The body obligation at every point. -/
theorem body_obligation2 (c : Dev nD) : BodyObligation (dat2 (F := F) V c) (defs₀ (F := F)) Variants.none () Set.univ := fun t => by
  rw [bigSep_W2, bigSep_W2]
  exact sound_body2 V c t

/-- The entry invariant is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the entry invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega)]
  unfold rest2
  iintro ⟨HS0, HR⟩
  iapply HR
  iexists _; iexact HS0

end Region2

end Cert.KernelIdeal.Hand

end
-- ==== Proof.KernelRun.lean ====
/-
  The three regions in sequence. Between @main's items every unscoped buffer of a core holds: at launch the memory; after
  region 0 the same with the transformed features written into its result array; after the one host reshape (the filter
  as a column) that too; after region 1 the filtered array; after region 2 the output. Each region is entered from the
  thread state "every unscoped buffer at the current contents" and left at the next one, its body obligation the region's
  own; from the chain: every weakly fair execution terminates, nothing faults, and every unscoped buffer ends at the last
  contents — in particular each argument array as launched and the result array at what region 2 leaves.
-/
import proofs.«168331_j13383118094872_2_alg».proof.Proof.R0Frame
import proofs.«168331_j13383118094872_2_alg».proof.Proof.R1Frame
import proofs.«168331_j13383118094872_2_alg».proof.Proof.R2Frame
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host reshape. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After region 2. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## No item writes an argument; the result array is what region 2 leaves -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 0).trans (((dat1 (V2 m) c).arrAt_in 0 rfl _).trans (A_eq1 (V2 m) c 0))
    _ = W1 m c (Proc.devRef .tc main_arg2) := StableHlo.after_of_forall_not_mem (b := Proc.devRef .tc main_arg2) _ _ (List.forall_iff_forall_mem.mp (by
          simp only [hostOps1, List.Forall, StableHlo.reshape_writes, Finset.mem_singleton]
          exact StableHlo.devRef_ne_of_ne (by decide)))
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.reshape_writes, Finset.mem_singleton]
          exact StableHlo.devRef_ne_of_ne (by decide)))
    _ = W0 m c (Proc.devRef .tc main_arg3) := (W1_arr m c 1).trans (((dat0 (V0 m) c).arrAt_in 1 rfl _).trans (A_eq0 (V0 m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.Forall, StableHlo.reshape_writes, Finset.mem_singleton]
          exact StableHlo.devRef_ne_of_ne (by decide)))
    _ = W0 m c (Proc.devRef .tc main_arg4) := W1_of_ne m c main_arg4 (by decide)
    _ = m ((c : Thread nD τ).loc main_arg4) := rfl
/-- The result array ends at what region 2's pipeline leaves in its output window's array. -/
theorem W4_main_v3 (c : Dev nD) : W4 m c (Proc.devRef .tc main_v3) = (dat2 (V3 m) c).arrAt 2 cfg2.N := W4_arr m c 2

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W0`, left at `W1`. Its arrays are split
    out of the unscoped buffers and put back at their exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at their exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := hout1 (V2 m) c
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split
    out of the unscoped buffers and put back at their exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (pdats m 2 c).Φ (Fin.last _) ⊢ (iprop(Pipeline.scopedRest spec2 c ∗ ∃ r, prngReg c r) : sProp 𝕄) := hout2 (V3 m) c
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .region (reg2 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

/-- The same run with the result array named: it ends at what region 2 leaves. -/
theorem run_result (ρ : Dev nD → PrngReg) : θ_run defs (onTc (τ := τ) (main (F := F))) ⟨m, fun _ => 0, ρ⟩ (fun r => ∀ c : Dev nD,
      r.2.mem ((c.tc : Thread nD τ).loc main_v3) = (dat2 (V3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_main_v3 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.KernelIdeal.Hand

end
-- ==== Proof.Spec.lean ====
/-
  The graph-wavelet layer as one function of its five argument arrays, on the extended reals, index by index:
    transformed = features · weight                     (a 256-term contraction)
    filtered    = filt[r] · (wavelets_inv · transformed) (an 8192-term contraction, then a scale per row)
    output      = wavelets · filtered                    (an 8192-term contraction)
  Both programs compute this function; the kernel forms each long contraction as a running sum of consecutive
  blocks of 2048 terms, which on the extended reals is the same sum (addition there is commutative and associative
  with no finiteness needed), and applies the row scale on the right where the reference applies it on the left.
-/
import Idealize.ShloMosaic.PureOps.Ideal
import Idealize.ShloMosaic.Lib.ValueIdx

noncomputable section

open scoped BigOperators

namespace Cert.Wavelet

open Idealize.ShloMosaic Idealize.ShloMosaic.ValueIdx

/-- features · weight: entry (r, j) is the sum over k of features(r, k) · weight(k, j). -/
def transformed (x : (⟨2, ![8192, 256]⟩ : Shape).Idx → EReal) (w : (⟨2, ![256, 256]⟩ : Shape).Idx → EReal) :
    (⟨2, ![8192, 256]⟩ : Shape).Idx → EReal :=
  fun i => ∑ k : Fin 256, x (ix2 (i 0) k) * w (ix2 k (i 1))

/-- filt(r) · Σ_k wavelets_inv(r, k) · t(k, j). -/
def filtered (winv : (⟨2, ![8192, 8192]⟩ : Shape).Idx → EReal) (filt : (⟨1, ![8192]⟩ : Shape).Idx → EReal)
    (t : (⟨2, ![8192, 256]⟩ : Shape).Idx → EReal) : (⟨2, ![8192, 256]⟩ : Shape).Idx → EReal :=
  fun i => filt (ix1 (i 0)) * ∑ k : Fin 8192, winv (ix2 (i 0) k) * t (ix2 k (i 1))

/-- The same with the row scale given as a column: s(r, 0) · Σ_k a(r, k) · t(k, j). -/
def scaledProduct (a : (⟨2, ![8192, 8192]⟩ : Shape).Idx → EReal) (s : (⟨2, ![8192, 1]⟩ : Shape).Idx → EReal)
    (t : (⟨2, ![8192, 256]⟩ : Shape).Idx → EReal) : (⟨2, ![8192, 256]⟩ : Shape).Idx → EReal :=
  fun i => s (ix2 (i 0) 0) * ∑ k : Fin 8192, a (ix2 (i 0) k) * t (ix2 k (i 1))

/-- Σ_k wavelets(r, k) · s(k, j). -/
def spread (wav : (⟨2, ![8192, 8192]⟩ : Shape).Idx → EReal) (s : (⟨2, ![8192, 256]⟩ : Shape).Idx → EReal) :
    (⟨2, ![8192, 256]⟩ : Shape).Idx → EReal :=
  fun i => ∑ k : Fin 8192, wav (ix2 (i 0) k) * s (ix2 k (i 1))

/-- The layer: wavelets · (filt ⊙ (wavelets_inv · (features · weight))), arguments in the programs' order. -/
def layer (x : (⟨2, ![8192, 256]⟩ : Shape).Idx → EReal) (wav winv : (⟨2, ![8192, 8192]⟩ : Shape).Idx → EReal)
    (w : (⟨2, ![256, 256]⟩ : Shape).Idx → EReal) (filt : (⟨1, ![8192]⟩ : Shape).Idx → EReal) :
    (⟨2, ![8192, 256]⟩ : Shape).Idx → EReal :=
  spread wav (filtered winv filt (transformed x w))

end Cert.Wavelet

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.Payloads.lean ====
/-
  The arithmetic of the three kernel bodies, read at one entry of a block, on the extended reals.

  Each body keeps a running sum in an accumulator block: it starts the block at zero, adds to every entry (r, j)
  the contraction over one block of the long axis, Σ_k left(r, k) · right(k, j), and at the end hands the
  accumulator on: unchanged (the first and third bodies) or with every row r scaled by the row's factor s(r, 0),
  the factor standing on the right of the product (the second body). Narrowing an array to a shorter float format,
  and recasting a block to its own shape, change no entry on the extended reals; a matrix product into a zero
  block is the bare sum of products.
-/
import proofs.«168331_j13383118094872_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## A matrix product into a zero block, at an entry

Both products contract the left operand's second axis with the right operand's first: at entry (r, j) with
contracted coordinate k the left operand is read at (r, k) and the right one at (k, j), and the entry is the sum
over k of the products. -/

theorem product256_left_row (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem product256_left_col (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem product256_right_row (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem product256_right_col (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The [2048, 256] · [256, 256] product into zero, at (r, j). -/
theorem product256_apply (l : FVec Ideal S2048x256 .bf16) (w : FVec Ideal S256x256 .bf16) (r : Fin 2048) (j : Fin 256) :
    matmul (F := Ideal) dot_S2048x256_S256x256_S2048x256_1_0_0_1_n_n none l w (constant (F := Ideal) S2048x256 .f32 0x00000000#32) (ix2 r j)
      = ∑ k : Fin 256, l (ix2 r k) * w (ix2 k j) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r j) ((contrEquiv1 dot_S2048x256_S256x256_S2048x256_1_0_0_1_n_n 256 rfl rfl).symm k) = ix2 r k :=
    funext fun a => Fin.ext (by
      match a with
      | ⟨0, _⟩ => exact product256_left_row _ _
      | ⟨1, _⟩ => exact (product256_left_col _ _).trans hk)
  have er : dot_S2048x256_S256x256_S2048x256_1_0_0_1_n_n.rhsIdx (ix2 r j) ((contrEquiv1 dot_S2048x256_S256x256_S2048x256_1_0_0_1_n_n 256 rfl rfl).symm k) = ix2 k j :=
    funext fun a => Fin.ext (by
      match a with
      | ⟨0, _⟩ => exact (product256_right_row _ _).trans hk
      | ⟨1, _⟩ => exact product256_right_col _ _)
  rw [el, er]

theorem product2048_left_row (i : S1024x256.Idx) (q : dot_S1024x2048_S2048x256_S1024x256_1_0_0_1_n_n.contr.Idx) : (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem product2048_left_col (i : S1024x256.Idx) (q : dot_S1024x2048_S2048x256_S1024x256_1_0_0_1_n_n.contr.Idx) : (dot_S1024x2048_S2048x256_S1024x256_1_0_0_1_n_n.lhsIdx i q 1).val = (q ⟨0, by decide⟩).val :=
  dot_S1024x2048_S2048x256_S1024x256_1_0_0_1_n_n.lhsIdx_val_of_single rfl i q
theorem product2048_right_row (i : S1024x256.Idx) (q : dot_S1024x2048_S2048x256_S1024x256_1_0_0_1_n_n.contr.Idx) : (dot_S1024x2048_S2048x256_S1024x256_1_0_0_1_n_n.rhsIdx i q 0).val = (q ⟨0, by decide⟩).val :=
  dot_S1024x2048_S2048x256_S1024x256_1_0_0_1_n_n.rhsIdx_val_of_single rfl i q
theorem product2048_right_col (i : S1024x256.Idx) (q : dot_S1024x2048_S2048x256_S1024x256_1_0_0_1_n_n.contr.Idx) : (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The [1024, 2048] · [2048, 256] product into zero, at (r, j). -/
theorem product2048_apply (l : FVec Ideal S1024x2048 .bf16) (w : FVec Ideal S2048x256 .bf16) (r : Fin 1024) (j : Fin 256) :
    matmul (F := Ideal) dot_S1024x2048_S2048x256_S1024x256_1_0_0_1_n_n none l w (constant (F := Ideal) S1024x256 .f32 0x00000000#32) (ix2 r j)
      = ∑ k : Fin 2048, l (ix2 r k) * w (ix2 k j) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r j) ((contrEquiv1 dot_S1024x2048_S2048x256_S1024x256_1_0_0_1_n_n 2048 rfl rfl).symm k) = ix2 r k :=
    funext fun a => Fin.ext (by
      match a with
      | ⟨0, _⟩ => exact product2048_left_row _ _
      | ⟨1, _⟩ => exact (product2048_left_col _ _).trans hk)
  have er : dot_S1024x2048_S2048x256_S1024x256_1_0_0_1_n_n.rhsIdx (ix2 r j) ((contrEquiv1 dot_S1024x2048_S2048x256_S1024x256_1_0_0_1_n_n 2048 rfl rfl).symm k) = ix2 k j :=
    funext fun a => Fin.ext (by
      match a with
      | ⟨0, _⟩ => exact (product2048_right_row _ _).trans hk
      | ⟨1, _⟩ => exact product2048_right_col _ _)
  rw [el, er]

/-! ## The first body: features · weight, 2048 rows at a time -/

/-- The accumulator block starts at zero. -/
theorem k0_pay1_apply (r : Fin 2048) (j : Fin 256) : k0_pay1 (F := Ideal) (ix2 r j) = 0 := by
  unfold k0_pay1
  rw [shapeCast_self]
  exact Ideal.ofBits_zero_f32

/-- One step adds the 256-term contraction to the accumulator. -/
theorem k0_pay2_apply (x : Vec Ideal S2048x256 .f32) (w : Vec Ideal S256x256 .f32) (acc : Vec Ideal S2048x256 .f32)
    (r : Fin 2048) (j : Fin 256) :
    k0_pay2 (F := Ideal) x w acc (ix2 r j) = acc (ix2 r j) + ∑ k : Fin 256, x (ix2 r k) * w (ix2 k j) := by
  unfold k0_pay2
  rw [shapeCast_self]
  exact congrArg (fun s => acc (ix2 r j) + s) (product256_apply _ _ r j)

/-- The block handed on is the accumulator, entry by entry. -/
theorem k0_pay3_apply (acc : Vec Ideal S2048x256 .f32) (r : Fin 2048) (j : Fin 256) :
    k0_pay3 (F := Ideal) acc (ix2 r j) = acc (ix2 r j) := rfl

/-! ## The second body: wavelets_inv · transformed, 1024 rows at a time, then the row scale -/

/-- The accumulator block starts at zero. -/
theorem k1_pay1_apply (r : Fin 1024) (j : Fin 256) : k1_pay1 (F := Ideal) (ix2 r j) = 0 := by
  unfold k1_pay1
  rw [shapeCast_self]
  exact Ideal.ofBits_zero_f32

/-- One step adds the 2048-term contraction over the current block of the long axis to the accumulator. -/
theorem k1_pay2_apply (x0 : Vec Ideal S1024x2048 .f32) (xb : Vec Ideal S2048x256 .bf16) (acc : Vec Ideal S1024x256 .f32)
    (r : Fin 1024) (j : Fin 256) :
    k1_pay2 (F := Ideal) x0 xb acc (ix2 r j) = acc (ix2 r j) + ∑ k : Fin 2048, x0 (ix2 r k) * xb (ix2 k j) := by
  unfold k1_pay2
  rw [shapeCast_self, shapeCast_self]
  exact congrArg (fun s => acc (ix2 r j) + s) (product2048_apply _ _ r j)

/-- The block handed on is the accumulator with row r scaled by the row's factor, the factor on the right. -/
theorem k1_pay3_apply (acc : Vec Ideal S1024x256 .f32) (s : Vec Ideal S1024x1 .f32) (r : Fin 1024) (j : Fin 256) :
    k1_pay3 (F := Ideal) acc s (ix2 r j) = acc (ix2 r j) * s (ix2 r 0) := by
  unfold k1_pay3
  rw [shapeCast_self]
  refine congrArg (fun t => acc (ix2 r j) * t) ?_
  exact broadcastTo_apply s broadcasts_S1024x1_S1024x256 (ix2 r j) (ix2 r 0) (fun a => match a with
    | ⟨0, _⟩ => by show r.val = if (1024 : Nat) = 1 then 0 else r.val; rw [if_neg (by decide)]
    | ⟨1, _⟩ => by show 0 = if (1 : Nat) = 1 then 0 else j.val; rw [if_pos rfl])

/-! ## The third body: wavelets · filtered, 1024 rows at a time -/

/-- The accumulator block starts at zero. -/
theorem k2_pay1_apply (r : Fin 1024) (j : Fin 256) : k2_pay1 (F := Ideal) (ix2 r j) = 0 := by
  unfold k2_pay1
  rw [shapeCast_self]
  exact Ideal.ofBits_zero_f32

/-- One step adds the 2048-term contraction over the current block of the long axis to the accumulator. -/
theorem k2_pay2_apply (x0 : Vec Ideal S1024x2048 .f32) (xb : Vec Ideal S2048x256 .bf16) (acc : Vec Ideal S1024x256 .f32)
    (r : Fin 1024) (j : Fin 256) :
    k2_pay2 (F := Ideal) x0 xb acc (ix2 r j) = acc (ix2 r j) + ∑ k : Fin 2048, x0 (ix2 r k) * xb (ix2 k j) := by
  unfold k2_pay2
  rw [shapeCast_self, shapeCast_self]
  exact congrArg (fun s => acc (ix2 r j) + s) (product2048_apply _ _ r j)

end Cert.KernelIdeal.Payloads

end
-- ==== Proof.R0Value.lean ====
/-
  Region 0's value leg. At each of its four grid points the body leaves in the output window's buffer the product of the
  point's two input blocks added to the zero block; the left block is rows 2048·t … 2048·t + 2047 of the features, the
  right block the whole weight matrix, and the output block the same rows of the result array. The four blocks tile the
  result array, so after the region it holds features · weight of the arrays the region found.
-/
import proofs.«168331_j13383118094872_2_alg».proof.Proof.R0Frame
import proofs.«168331_j13383118094872_2_alg».proof.Proof.Payloads
import proofs.«168331_j13383118094872_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Cert.KernelIdeal.Payloads
open Idealize.ShloMosaic Idealize.ShloMosaic.TcCoe Idealize.ShloMosaic.Tactic Idealize.ShloMosaic.ValueIdx
open Idealize.SL.Sem
open Idealize.ShloMosaic.Pipeline (Dat)

theorem origin2 : (![0, 0] : Fin 2 → Nat) = fun _ => 0 := funext fun a => by fin_cases a <;> rfl

/-- A load of the whole buffer after stores of which the LAST was of the whole buffer reads that store's payload. -/
theorem readCov_last_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

section
variable {F : FTy → Type} [FloatOps F]

/-- What the one case leaves in the output window's buffer: the blocks' product added to the zero block. -/
theorem out0_D_eq (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .bf16) (harg4 : arg4.IsWhole) (arg5 : Memref sig .tc .vmem S2048x256 .f32) (harg5 : arg5.IsWhole) (hc0 : cond0_0 i) (hc1 : cond0_1 i) (x0 : Vec F S2048x256 .f32) (x1 : Vec F S256x256 .f32) :
    out0_D c i arg2 harg2 arg3 harg3 arg4 harg4 arg5 harg5 hc0 hc1 x0 x1 = k0_pay3 (k0_pay2 x0 x1 k0_pay1) := by
  unfold out0_D
  rw [View.read_writes_eq_canon _ _ _ (cover0_D c i arg2 harg2 arg3 harg3 arg4 harg4 arg5 harg5 hc0 hc1 x0 x1)]
  unfold kernelRun0_D
  dsimp only
  sl_unfold_words
  rw [View.canon_unit_zero origin2, readCov_last_whole _ origin2, View.readCov_unit_zero (S := S2048x256) _ origin2]
  simp only [View.readAt_eq_ld, harg2.read_unread, harg3.read_unread, View.ld_unit_zero (S := S2048x256) origin2, View.ld_unit_zero (S := S256x256) origin2]

end

/-- The printed index maps over the four points: the left and output windows move with the point along the rows, the
    weight's window stays at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of features · weight of the arrays the region found. -/
theorem flushed0_eq (c : Dev nD) (t : Fin cfg0.N) :
    (dat0 (F := Ideal) V c).flushed 2 t = ((cfg0.win 2).blk t).view.read (Elt Ideal) (Cert.Wavelet.transformed (V c main_arg0) (V c main_arg3)) := by
  show (cfg0.win 2).cut (grid0.coords t) ((dat0 (F := Ideal) V c).after 2 t) = _
  rw [after0_2, out0_D_eq]
  obtain ⟨e0, e1, e2, e3, e4, e5⟩ := idx_facts0 t
  funext j
  obtain ⟨r, q, rfl⟩ : ∃ (r : Fin 2048) (q : Fin 256), j = ix2 r q := ⟨j 0, j 1, eq_ix2 (n0 := 2048) (n1 := 256) j⟩
  show k0_pay3 (F := Ideal) (k0_pay2 (F := Ideal) (iblk0 V c 0 t) (iblk0 V c 1 t) (k0_pay1 (F := Ideal))) (ix2 r q)
    = Cert.Wavelet.transformed (V c main_arg0) (V c main_arg3) (((cfg0.win 2).blk t).view.emb (ix2 r q))
  rw [k0_pay3_apply, k0_pay2_apply, k0_pay1_apply, zero_add]
  unfold Cert.Wavelet.transformed
  refine Finset.sum_congr rfl fun k _ => ?_
  refine congr (congrArg _ ?_) ?_
  · show (V c main_arg0 : S8192x256.Idx → EReal) (((cfg0.win 0).blk t).view.emb (ix2 r k)) = (V c main_arg0 : S8192x256.Idx → EReal) _
    refine congrArg _ ?_
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 256 + 1 * k.val = k.val; omega
  · show (V c main_arg3 : S256x256.Idx → EReal) (((cfg0.win 1).blk t).view.emb (ix2 k q)) = (V c main_arg3 : S256x256.Idx → EReal) _
    refine congrArg _ ?_
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega

/-- An index of the result array is in point `t`'s block iff each coordinate is in the block's range on its axis. -/
theorem mem_blk0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Every row of the result array lies in the block of the point its row block names. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 4 := N_0
  let t : Fin cfg0.N := ⟨(i 0).val / 2048, by omega⟩
  obtain ⟨e0, e1, e2, e3, e4, e5⟩ := idx_facts0 t
  have e4' : win0_2.index t (0 : Fin 2) = (i 0).val / 2048 := e4
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- After region 0 its result array holds features · weight of the arrays it found. -/
theorem final0 (c : Dev nD) :
    (dat0 (F := Ideal) V c).arrAt 2 cfg0.N = Cert.Wavelet.transformed (V c main_arg0) (V c main_arg3) :=
  (dat0 (F := Ideal) V c).arrAt_eq_of_cover 2 (Cert.Wavelet.transformed (V c main_arg0) (V c main_arg3))
    (fun t _ => flushed0_eq V c t) cover0

end

end Cert.KernelIdeal.Hand

end
-- ==== Proof.R1Pieces.lean ====
/-
  Region 1, what each control case leaves behind, as the body's arithmetic over the blocks it read.

  The body reads its left block whole, reads from the resident right array the 2048 rows at its column-block
  coordinate, and keeps its running sum in the accumulator. At a first block it stores zero, reads it back and stores
  the block's product added to it; at a later block it stores the product added to what the accumulator held; at a
  last block it also stores, into the output window, the accumulator it has just written, scaled row by row.
-/
import proofs.«168331_j13383118094872_2_alg».proof.Proof.R1Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

theorem zero2 : (![0, 0] : Fin 2 → Nat) = fun _ => 0 := funext fun a => by fin_cases a <;> rfl

/-- The block of 2048 rows of the resident array the body reads at its column-block coordinate. -/
def colBlock1 (x1 : Vec F S8192x256 .bf16) (i : grid1.Coords) : Vec F S2048x256 .bf16 :=
  View.ld x1 (Rect.unit (s := S8192x256) (k1_off1 i) S2048x256.size (k1_off1_inb i))

/-- At a first block the accumulator ends at the block's product added to the zero block. -/
theorem sout1_A_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i) (x0 : Vec F S1024x2048 .f32) (x1 : Vec F S8192x256 .bf16) (x2 : Vec F S1024x1 .f32) :
    sout1_A c i arg2 harg2 arg3 harg3 arg4 harg4 arg5 harg5 arg6 harg6 hc0 hc1 x0 x1 x2 = k1_pay2 x0 (colBlock1 x1 i) k1_pay1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S1024x256) zero2, View.readCov_unit_zero (S := S1024x256) _ zero2]
  simp only [View.readAt_eq_ld, harg2.read_unread, harg3.read_unread, View.ld_unit_zero (S := S1024x2048) zero2]
  rfl

/-- At a middle block the accumulator ends at the block's product added to what it held. -/
theorem sout1_B_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i) (x0 : Vec F S1024x2048 .f32) (x1 : Vec F S8192x256 .bf16) (x2 : Vec F S1024x1 .f32) (xs0 : Vec F S1024x256 .f32) :
    sout1_B c i arg2 harg2 arg3 harg3 arg4 harg4 arg5 harg5 arg6 harg6 hc0 hc1 x0 x1 x2 xs0 = k1_pay2 x0 (colBlock1 x1 i) xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero zero2]
  simp only [View.readAt_eq_ld, harg2.read_unread, harg3.read_unread, harg6.read_unread, View.ld_unit_zero (S := S1024x2048) zero2, View.ld_unit_zero (S := S1024x256) zero2]
  rfl

/-- At a last block the accumulator ends the same way … -/
theorem sout1_C_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) :
    sout1_C c i arg2 harg2 arg3 harg3 arg4 harg4 arg5 harg5 arg6 harg6 hc0 hc1 x0 x1 x2 xs0 = k1_pay2 x0 (colBlock1 x1 i) xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero zero2]
  simp only [View.readAt_eq_ld, harg2.read_unread, harg3.read_unread, harg6.read_unread, View.ld_unit_zero (S := S1024x2048) zero2, View.ld_unit_zero (S := S1024x256) zero2]
  rfl

/-- … and the output window's buffer at that accumulator scaled row by row. -/
theorem out1_C_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i) (x0 : Vec F S1024x2048 .f32) (x1 : Vec F S8192x256 .bf16) (x2 : Vec F S1024x1 .f32) (xs0 : Vec F S1024x256 .f32) :
    out1_C c i arg2 harg2 arg3 harg3 arg4 harg4 arg5 harg5 arg6 harg6 hc0 hc1 x0 x1 x2 xs0 = k1_pay3 (k1_pay2 x0 (colBlock1 x1 i) xs0) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero zero2, View.readCov_unit_zero (S := S1024x256) _ zero2]
  simp only [View.readAt_eq_ld, harg2.read_unread, harg3.read_unread, harg4.read_unread, harg6.read_unread, View.ld_unit_zero (S := S1024x2048) zero2, View.ld_unit_zero (S := S1024x256) zero2, View.ld_unit_zero (S := S1024x1) zero2]
  rfl

end Cert.KernelIdeal.Hand

end
-- ==== Proof.SumBlocks.lean ====
/-
  A sum over 8192 consecutive positions, cut into four consecutive blocks of 2048.
-/
import Mathlib.Algebra.BigOperators.Fin
import Mathlib.Algebra.BigOperators.Group.Finset.Basic
import Mathlib.Logic.Equiv.Fin.Basic

open scoped BigOperators

namespace Cert.BlockSum

/-- A sum over 8192 consecutive positions is the sum, over its four consecutive blocks of 2048 positions, of the
    blocks' sums: position 2048 · a + b is position b of block a. Holds in any commutative additive monoid, so on the
    extended reals with no finiteness asked. -/
theorem sum_four_blocks {M : Type*} [AddCommMonoid M] (f : Fin 8192 → M) :
    ∑ k : Fin 8192, f k = ∑ a : Fin 4, ∑ b : Fin 2048, f ⟨2048 * a.val + b.val, by omega⟩ := by
  rw [← Equiv.sum_comp (finProdFinEquiv : Fin 4 × Fin 2048 ≃ Fin 8192) f, Fintype.sum_prod_type]
  refine Finset.sum_congr rfl fun a _ => Finset.sum_congr rfl fun b _ => congrArg f (Fin.ext ?_)
  show b.val + 2048 * a.val = 2048 * a.val + b.val
  omega

end Cert.BlockSum
-- ==== Proof.R1Value.lean ====
/-
  Region 1's value: after the region the output array holds, at entry (R, j), the row's factor scale(R, 0) times the
  8192-term sum Σ_k left(R, k) · right(k, j) of the arrays the region found.

  Grid point t works on row block t / 4 (1024 rows) and column block t % 4 (2048 positions of the long axis). Its left
  block is the left array at those rows and positions; the rows it reads of the resident right array are the array's
  rows at those positions; its scale block is the scale at those rows. After point t the accumulator holds the
  running sum: zero plus the point's 2048-term part at a first block, the sum after the point before plus the
  point's part otherwise (by induction on the point). At a last block the four parts are the four consecutive
  blocks of the 8192-term sum, added in order onto zero, so the accumulator holds the whole sum (addition on the
  extended reals is associative with zero neutral: no finiteness is used), and the output window's buffer holds it
  scaled, the factor on the right; the product commutes. The last points' blocks tile the output array.
-/
import proofs.«168331_j13383118094872_2_alg».proof.Proof.R1Pieces
import proofs.«168331_j13383118094872_2_alg».proof.Proof.Payloads
import proofs.«168331_j13383118094872_2_alg».proof.Proof.SumBlocks
import proofs.«168331_j13383118094872_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Where the windows' blocks sit at grid point t: the left array's block (t / 4, t % 4), the resident array's one
    block, the scale's and the output's block t / 4; and the body's column-block coordinate is t % 4. -/
theorem where1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ (grid1.coords t 1).val = t.val % 4 :=
  (by decide +kernel : ∀ t : Fin grid1.N, _)

/-- Row r of the row block of point t, as a row of the whole array. -/
def rowAt1 (t : Fin cfg1.N) (r : Fin 1024) : Fin 8192 :=
  ⟨1024 * (t.val / 4) + r.val, by have h := lt_of_lt_of_eq t.isLt (show cfg1.N = 32 from N_1); have := r.isLt; omega⟩
/-- Position k of the column block of point t, as a position of the long axis. -/
def colAt1 (t : Fin cfg1.N) (k : Fin 2048) : Fin 8192 :=
  ⟨2048 * (t.val % 4) + k.val, by have := k.isLt; omega⟩

section Region1
variable (V : (c : Dev nD) → (b : Ref sig .tc) → Buf (Elt Ideal) ((c : Thread nD τ).loc b))

/-- The three arrays the region finds, as functions on the extended reals: the left array, the resident right array,
    the row scale. -/
abbrev left1 (c : Dev nD) : S8192x8192.Idx → EReal := V c main_arg2
abbrev right1 (c : Dev nD) : S8192x256.Idx → EReal := V c main_v0
abbrev scale1 (c : Dev nD) : S8192x1.Idx → EReal := V c main_v1

/-- The left window's block at point t is the left array at the point's rows and column positions. -/
theorem left_block1 (c : Dev nD) (t : Fin cfg1.N) (r : Fin 1024) (k : Fin 2048) :
    (iblk1 V c 0 t : Vec Ideal S1024x2048 .f32) (ix2 r k) = left1 V c (ix2 (rowAt1 t r) (colAt1 t k)) := by
  obtain ⟨e0, e1, -⟩ := where1 t
  unfold iblk1
  rw [View.read_apply]
  show V c main_arg2 _ = V c main_arg2 _
  refine congrArg (V c main_arg2) (funext fun a => Fin.ext ?_)
  match a with
  | ⟨0, _⟩ => show win1_0.index t (0 : Fin 2) * 1024 + 1 * r.val = 1024 * (t.val / 4) + r.val; omega
  | ⟨1, _⟩ => show win1_0.index t (1 : Fin 2) * 2048 + 1 * k.val = 2048 * (t.val % 4) + k.val; omega

/-- The rows of the resident array the body reads at point t are the array's rows at the point's column positions. -/
theorem right_block1 (c : Dev nD) (t : Fin cfg1.N) (k : Fin 2048) (j : Fin 256) :
    colBlock1 (iblk1 V c 1 t : Vec Ideal S8192x256 .bf16) (grid1.coords t) (ix2 k j) = right1 V c (ix2 (colAt1 t k) j) := by
  obtain ⟨-, -, e2, e3, -, -, -, -, e8⟩ := where1 t
  unfold colBlock1 iblk1
  show View.read _ _ _ _ = _
  rw [View.read_apply]
  show V c main_v0 _ = V c main_v0 _
  refine congrArg (V c main_v0) (funext fun a => Fin.ext ?_)
  have ho := k1_off1_eq (grid1.coords t)
  match a with
  | ⟨0, _⟩ => show win1_1.index t (0 : Fin 2) * 8192 + 1 * (k1_off1 (grid1.coords t) 0 + 1 * k.val) = 2048 * (t.val % 4) + k.val; rw [ho]; show win1_1.index t (0 : Fin 2) * 8192 + 1 * (2048 * (grid1.coords t 1).val + 1 * k.val) = _; omega
  | ⟨1, _⟩ => show win1_1.index t (1 : Fin 2) * 256 + 1 * (k1_off1 (grid1.coords t) 1 + 1 * j.val) = j.val; rw [ho]; show win1_1.index t (1 : Fin 2) * 256 + 1 * (0 + 1 * j.val) = _; omega

/-- The scale window's block at point t is the scale at the point's rows. -/
theorem scale_block1 (c : Dev nD) (t : Fin cfg1.N) (r : Fin 1024) :
    (iblk1 V c 2 t : Vec Ideal S1024x1 .f32) (ix2 r 0) = scale1 V c (ix2 (rowAt1 t r) 0) := by
  obtain ⟨-, -, -, -, e4, e5, -⟩ := where1 t
  unfold iblk1
  rw [View.read_apply]
  show V c main_v1 _ = V c main_v1 _
  refine congrArg (V c main_v1) (funext fun a => Fin.ext ?_)
  match a with
  | ⟨0, _⟩ => show win1_2.index t (0 : Fin 2) * 1024 + 1 * r.val = 1024 * (t.val / 4) + r.val; omega
  | ⟨1, _⟩ => show win1_2.index t (1 : Fin 2) * 1 + 1 * 0 = 0; omega

/-- The part of entry (r, j)'s long sum that lies in point t's column block: 2048 terms. -/
def term1 (c : Dev nD) (t : Fin cfg1.N) (r : Fin 1024) (j : Fin 256) : EReal :=
  ∑ k : Fin 2048, left1 V c (ix2 (rowAt1 t r) (colAt1 t k)) * right1 V c (ix2 (colAt1 t k) j)

/-- The running sum after point n: started afresh from zero at a first block, otherwise the sum after the point
    before plus this point's part. -/
def run1 (c : Dev nD) : (n : ℕ) → n < cfg1.N → Fin 1024 → Fin 256 → EReal
  | 0, hn => fun r j => 0 + term1 V c ⟨0, hn⟩ r j
  | n + 1, hn =>
    if (n + 1) % 4 = 0 then fun r j => 0 + term1 V c ⟨n + 1, hn⟩ r j
    else fun r j => run1 c n (Nat.lt_of_succ_lt hn) r j + term1 V c ⟨n + 1, hn⟩ r j

/-- One step of the body at point t over an accumulator: the accumulator plus the point's part. -/
theorem step1 (c : Dev nD) (t : Fin cfg1.N) (acc : Vec Ideal S1024x256 .f32) (r : Fin 1024) (j : Fin 256) :
    k1_pay2 (F := Ideal) (iblk1 V c 0 t) (colBlock1 (iblk1 V c 1 t) (grid1.coords t)) acc (ix2 r j) = acc (ix2 r j) + term1 V c t r j := by
  refine (Payloads.k1_pay2_apply (iblk1 V c 0 t) (colBlock1 (iblk1 V c 1 t) (grid1.coords t)) acc r j).trans ?_
  unfold term1
  refine congrArg (fun s => acc (ix2 r j) + s) (Finset.sum_congr rfl fun k _ => ?_)
  exact congrArg₂ (· * ·) (left_block1 V c t r k) (right_block1 V c t k j)

/-- After a first block the accumulator holds zero plus the point's part. -/
theorem acc1_first (c : Dev nD) (t : Fin cfg1.N) (h0 : t.val % 4 = 0) (r : Fin 1024) (j : Fin 256) :
    (outsAt1 V c t.val t.isLt).2 (ix2 r j) = 0 + term1 V c t r j := by
  have h1 : ¬t.val % 4 = 3 := by omega
  rw [outsAt1_A V c t h0 h1]
  dsimp only
  rw [sout1_A_eq c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)]
  refine (step1 V c t (k1_pay1 (F := Ideal)) r j).trans ?_
  rw [Payloads.k1_pay1_apply r j]

/-- After a later block it holds what it held after the point before plus the point's part. -/
theorem acc1_next (c : Dev nD) (t : Fin cfg1.N) (h0 : ¬t.val % 4 = 0) (r : Fin 1024) (j : Fin 256) :
    (outsAt1 V c t.val t.isLt).2 (ix2 r j) = (outsAt1 V c (t.val - 1) (Nat.lt_of_le_of_lt (Nat.sub_le _ _) t.isLt)).2 (ix2 r j) + term1 V c t r j := by
  by_cases h1 : t.val % 4 = 3
  · rw [outsAt1_C V c t h0 h1]
    dsimp only
    rw [sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
    exact step1 V c t (outsAt1 V c (t.val - 1) (Nat.lt_of_le_of_lt (Nat.sub_le _ _) t.isLt)).2 r j
  · rw [outsAt1_B V c t h0 h1]
    dsimp only
    rw [sout1_B_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2]
    exact step1 V c t (outsAt1 V c (t.val - 1) (Nat.lt_of_le_of_lt (Nat.sub_le _ _) t.isLt)).2 r j

/-- So after every point the accumulator holds the running sum. -/
theorem acc1_eq (c : Dev nD) : ∀ (n : ℕ) (hn : n < cfg1.N) (r : Fin 1024) (j : Fin 256),
    (outsAt1 V c n hn).2 (ix2 r j) = run1 V c n hn r j
  | 0, hn, r, j => acc1_first V c ⟨0, hn⟩ (Nat.zero_mod 4) r j
  | n + 1, hn, r, j => by
    by_cases h0 : (n + 1) % 4 = 0
    · refine (acc1_first V c ⟨n + 1, hn⟩ h0 r j).trans ?_
      rw [run1, if_pos h0]
    · refine (acc1_next V c ⟨n + 1, hn⟩ h0 r j).trans ?_
      rw [run1, if_neg h0]
      exact congrArg (fun z => z + term1 V c ⟨n + 1, hn⟩ r j) (acc1_eq c n (Nat.lt_of_succ_lt hn) r j)

/-- At a last block the output window's buffer holds the accumulator with row r scaled by the row's factor. -/
theorem out1_last (c : Dev nD) (t : Fin cfg1.N) (h1 : t.val % 4 = 3) (r : Fin 1024) (j : Fin 256) :
    (outsAt1 V c t.val t.isLt).1 (ix2 r j)
      = (outsAt1 V c t.val t.isLt).2 (ix2 r j) * scale1 V c (ix2 (rowAt1 t r) 0) := by
  have h0 : ¬t.val % 4 = 0 := by omega
  rw [outsAt1_C V c t h0 h1]
  dsimp only
  rw [out1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
    sout1_C_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]
  refine (Payloads.k1_pay3_apply (k1_pay2 (F := Ideal) (iblk1 V c 0 t) (colBlock1 (iblk1 V c 1 t) (grid1.coords t)) (outsAt1 V c (t.val - 1) (Nat.lt_of_le_of_lt (Nat.sub_le _ _) t.isLt)).2) (iblk1 V c 2 t) r j).trans ?_
  rw [scale_block1 V c t r]

/-- The running sum at a first block … -/
theorem run1_first (c : Dev nD) (n : ℕ) (hn : n < cfg1.N) (h : n % 4 = 0) (r : Fin 1024) (j : Fin 256) :
    run1 V c n hn r j = 0 + term1 V c ⟨n, hn⟩ r j := by
  cases n with
  | zero => rfl
  | succ n => rw [run1, if_pos h]
/-- … and at a later one. -/
theorem run1_next (c : Dev nD) (n : ℕ) (hn : n + 1 < cfg1.N) (h : ¬(n + 1) % 4 = 0) (r : Fin 1024) (j : Fin 256) :
    run1 V c (n + 1) hn r j = run1 V c n (Nat.lt_of_succ_lt hn) r j + term1 V c ⟨n + 1, hn⟩ r j := by
  rw [run1, if_neg h]

/-- The part of a point in the same row block as t and in column block q is block q of row (t, r)'s long sum. -/
theorem term1_at (c : Dev nD) (t t' : Fin cfg1.N) (q : Fin 4) (hR : t'.val / 4 = t.val / 4) (hq : t'.val % 4 = q.val)
    (r : Fin 1024) (j : Fin 256) :
    term1 V c t' r j = ∑ b : Fin 2048,
      (fun k : Fin 8192 => left1 V c (ix2 (rowAt1 t r) k) * right1 V c (ix2 k j)) ⟨2048 * q.val + b.val, by have := q.isLt; have := b.isLt; omega⟩ := by
  unfold term1
  refine Finset.sum_congr rfl fun b _ => ?_
  have er : rowAt1 t' r = rowAt1 t r := Fin.ext (by show 1024 * (t'.val / 4) + r.val = 1024 * (t.val / 4) + r.val; rw [hR])
  have ec : colAt1 t' b = ⟨2048 * q.val + b.val, by have := q.isLt; have := b.isLt; omega⟩ :=
    Fin.ext (by show 2048 * (t'.val % 4) + b.val = 2048 * q.val + b.val; rw [hq])
  rw [er, ec]

/-- After a last block the running sum is the whole 8192-term sum: its four parts are the sum's four consecutive
    blocks of 2048 terms, added in order onto zero. -/
theorem run1_last (c : Dev nD) (t : Fin cfg1.N) (h1 : t.val % 4 = 3) (r : Fin 1024) (j : Fin 256) :
    run1 V c t.val t.isLt r j = ∑ k : Fin 8192, left1 V c (ix2 (rowAt1 t r) k) * right1 V c (ix2 k j) := by
  obtain ⟨n, hn⟩ := t
  obtain ⟨m, rfl⟩ : ∃ m, n = m + 3 := ⟨n - 3, by have : n % 4 = 3 := h1; omega⟩
  have hm : m % 4 = 0 := by have : (m + 3) % 4 = 3 := h1; omega
  have h3 : ¬(m + 2 + 1) % 4 = 0 := by omega
  have h2 : ¬(m + 1 + 1) % 4 = 0 := by omega
  have h1' : ¬(m + 1) % 4 = 0 := by omega
  show run1 V c (m + 2 + 1) hn r j = _
  rw [run1_next V c (m + 2) hn h3, run1_next V c (m + 1) _ h2, run1_next V c m _ h1', run1_first V c m _ hm]
  rw [Cert.BlockSum.sum_four_blocks (fun k : Fin 8192 => left1 V c (ix2 (rowAt1 ⟨m + 3, hn⟩ r) k) * right1 V c (ix2 k j)), Fin.sum_univ_four]
  rw [term1_at V c ⟨m + 3, hn⟩ ⟨m, _⟩ 0 (by show m / 4 = (m + 3) / 4; omega) (by show m % 4 = 0; omega),
    term1_at V c ⟨m + 3, hn⟩ ⟨m + 1, _⟩ 1 (by show (m + 1) / 4 = (m + 3) / 4; omega) (by show (m + 1) % 4 = 1; omega),
    term1_at V c ⟨m + 3, hn⟩ ⟨m + 1 + 1, _⟩ 2 (by show (m + 1 + 1) / 4 = (m + 3) / 4; omega) (by show (m + 1 + 1) % 4 = 2; omega),
    term1_at V c ⟨m + 3, hn⟩ ⟨m + 2 + 1, _⟩ 3 (by show (m + 2 + 1) / 4 = (m + 3) / 4; omega) (by show (m + 2 + 1) % 4 = 3; omega), zero_add]

/-- What point t writes back at a last block is block t of the scaled product of the three arrays. -/
theorem flushed1_eq (c : Dev nD) (t : Fin cfg1.N) (hf : (cfg1.win 3).flush t = true) :
    (dat1 V c).flushed 3 t = ((cfg1.win 3).blk t).view.read (Elt Ideal) (Cert.Wavelet.scaledProduct (left1 V c) (scale1 V c) (right1 V c)) := by
  have h1 : t.val % 4 = 3 := (flush1_3 t).mp hf
  obtain ⟨-, -, -, -, -, -, e6, e7, -⟩ := where1 t
  show (cfg1.win 3).cut (grid1.coords t) ((dat1 V c).after 3 t) = _
  rw [after1_3]
  funext y
  obtain ⟨r, j, rfl⟩ : ∃ (r : Fin 1024) (j : Fin 256), y = ix2 r j := ⟨y 0, y 1, eq_ix2 y⟩
  rw [View.read_apply]
  have ei : ((cfg1.win 3).blk t).view.emb (ix2 r j) = (ix2 (rowAt1 t r) j : S8192x256.Idx) := funext fun a => Fin.ext (by
    match a with
    | ⟨0, _⟩ => show win1_3.index t (0 : Fin 2) * 1024 + 1 * r.val = 1024 * (t.val / 4) + r.val; omega
    | ⟨1, _⟩ => show win1_3.index t (1 : Fin 2) * 256 + 1 * j.val = j.val; omega)
  rw [ei]
  show (outsAt1 V c t.val t.isLt).1 (ix2 r j) = scale1 V c (ix2 (rowAt1 t r) 0) * ∑ k : Fin 8192, left1 V c (ix2 (rowAt1 t r) k) * right1 V c (ix2 k j)
  rw [out1_last V c t h1 r j, acc1_eq V c t.val t.isLt r j, run1_last V c t h1 r j]
  exact mul_comm _ _

/-- An entry of the output array is in point t's block iff each coordinate is in the block's range on its axis. -/
theorem mem_blk1 (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v2).slice (win1_3.rect t)).set ↔ _
  rw [View.set_slice_whole, Rect.mem_set_unit]
  exact Iff.rfl

/-- Every entry of the output array is in the block of the last point of its row block. -/
theorem cover1 (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  have hN : cfg1.N = 32 := N_1
  let t : Fin cfg1.N := ⟨4 * ((i 0).val / 1024) + 3, by omega⟩
  obtain ⟨-, -, -, -, -, -, e6, e7, -⟩ := where1 t
  have e6' : win1_3.index t (0 : Fin 2) = (4 * ((i 0).val / 1024) + 3) / 4 := e6
  refine ⟨t, (flush1_3 t).mpr (by show (4 * ((i 0).val / 1024) + 3) % 4 = 3; omega), ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 256 ≤ (i 1).val ∧ (i 1).val < win1_3.index t (1 : Fin 2) * 256 + 256; omega

/-- The output array after the region: the scaled product of the three arrays the region found. -/
theorem final1 (c : Dev nD) :
    (dat1 (F := Ideal) V c).arrAt 3 cfg1.N = Cert.Wavelet.scaledProduct (V c main_arg2) (V c main_v1) (V c main_v0) :=
  (dat1 V c).arrAt_eq_of_cover 3 (Cert.Wavelet.scaledProduct (left1 V c) (scale1 V c) (right1 V c)) (flushed1_eq V c) cover1

end Region1

end Cert.KernelIdeal.Hand

end
-- ==== Proof.R2Pieces.lean ====
/-
  Region 2, what each control case leaves behind, as the body's arithmetic over the blocks it read.

  The body reads its left block whole, reads from the resident right array the 2048 rows at its column-block
  coordinate, and keeps its running sum in the accumulator. At a first block it stores zero, reads it back and stores
  the block's product added to it; at a later block it stores the product added to what the accumulator held; at a
  last block it also stores, into the output window, the accumulator it has just written.
-/
import proofs.«168331_j13383118094872_2_alg».proof.Proof.R2Frame
import proofs.«168331_j13383118094872_2_alg».proof.Proof.R0Value
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The block of 2048 rows of the resident array the body reads at its column-block coordinate. -/
def colBlock2 (x1 : Vec F S8192x256 .bf16) (i : grid2.Coords) : Vec F S2048x256 .bf16 :=
  View.ld x1 (Rect.unit (s := S8192x256) (k2_off1 i) S2048x256.size (k2_off1_inb i))

/-- At a first block the accumulator ends at the block's product added to the zero block. -/
theorem sout2_A_eq (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond2_0 i) (hc1 : ¬cond2_1 i) (x0 : Vec F S1024x2048 .f32) (x1 : Vec F S8192x256 .bf16) :
    sout2_A c i arg2 harg2 arg3 harg3 arg4 harg4 arg5 harg5 hc0 hc1 x0 x1 = k2_pay2 x0 (colBlock2 x1 i) k2_pay1 := by
  unfold sout2_A
  rw [View.read_writes_eq_canon _ _ _ (scover2_A c i arg2 harg2 arg3 harg3 arg4 harg4 arg5 harg5 hc0 hc1 x0 x1)]
  unfold kernelRun2_A
  dsimp only
  sl_unfold_words
  rw [View.canon_cons_unit_zero (S := S1024x256) origin2, View.readCov_unit_zero (S := S1024x256) _ origin2]
  simp only [View.readAt_eq_ld, harg2.read_unread, harg3.read_unread, View.ld_unit_zero (S := S1024x2048) origin2]
  rfl

/-- At a middle block the accumulator ends at the block's product added to what it held. -/
theorem sout2_B_eq (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : ¬cond2_1 i) (x0 : Vec F S1024x2048 .f32) (x1 : Vec F S8192x256 .bf16) (xs0 : Vec F S1024x256 .f32) :
    sout2_B c i arg2 harg2 arg3 harg3 arg4 harg4 arg5 harg5 hc0 hc1 x0 x1 xs0 = k2_pay2 x0 (colBlock2 x1 i) xs0 := by
  unfold sout2_B
  rw [View.read_writes_eq_canon _ _ _ (scover2_B c i arg2 harg2 arg3 harg3 arg4 harg4 arg5 harg5 hc0 hc1 x0 x1 xs0)]
  unfold kernelRun2_B
  dsimp only
  rw [View.canon_unit_zero origin2]
  simp only [View.readAt_eq_ld, harg2.read_unread, harg3.read_unread, harg5.read_unread, View.ld_unit_zero (S := S1024x2048) origin2, View.ld_unit_zero (S := S1024x256) origin2]
  rfl

/-- At a last block the accumulator ends the same way … -/
theorem sout2_C_eq (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) :
    sout2_C c i arg2 harg2 arg3 harg3 arg4 harg4 arg5 harg5 hc0 hc1 x0 x1 xs0 = k2_pay2 x0 (colBlock2 x1 i) xs0 := by
  unfold sout2_C
  rw [View.read_writes_eq_canon _ _ _ (scover2_C c i arg2 harg2 arg3 harg3 arg4 harg4 arg5 harg5 hc0 hc1 x0 x1 xs0)]
  unfold kernelRun2_C
  dsimp only
  sl_unfold_words
  rw [View.canon_unit_zero origin2]
  simp only [View.readAt_eq_ld, harg2.read_unread, harg3.read_unread, harg5.read_unread, View.ld_unit_zero (S := S1024x2048) origin2, View.ld_unit_zero (S := S1024x256) origin2]
  rfl

/-- … and the output window's buffer at that accumulator. -/
theorem out2_C_eq (c : Dev nD) (i : grid2.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond2_0 i) (hc1 : cond2_1 i) (x0 : Vec F S1024x2048 .f32) (x1 : Vec F S8192x256 .bf16) (xs0 : Vec F S1024x256 .f32) :
    out2_C c i arg2 harg2 arg3 harg3 arg4 harg4 arg5 harg5 hc0 hc1 x0 x1 xs0 = k2_pay2 x0 (colBlock2 x1 i) xs0 := by
  unfold out2_C
  rw [View.read_writes_eq_canon _ _ _ (cover2_C c i arg2 harg2 arg3 harg3 arg4 harg4 arg5 harg5 hc0 hc1 x0 x1 xs0)]
  unfold kernelRun2_C
  dsimp only
  sl_unfold_words
  rw [View.canon_unit_zero origin2, View.readCov_unit_zero (S := S1024x256) _ origin2]
  simp only [View.readAt_eq_ld, harg2.read_unread, harg3.read_unread, harg5.read_unread, View.ld_unit_zero (S := S1024x2048) origin2, View.ld_unit_zero (S := S1024x256) origin2]
  rfl

end Cert.KernelIdeal.Hand

end
-- ==== Proof.R2Value.lean ====
/-
  Region 2's value leg. Grid point t works on row block t / 4 (1024 rows) and column block t % 4 (2048 positions of the
  long axis). The body adds to the accumulator the part of each entry's 8192-term sum that lies in the point's column
  block; started from zero at a row block's first column block, the accumulator therefore holds after point t the sum
  of the parts of column blocks 0 … t % 4, and at the last column block the whole sum, because a sum over 8192 positions
  is the sum of its four consecutive blocks of 2048 in any commutative monoid. That is what the point writes back, the
  eight row blocks tile the result array, and so the array ends at wavelets · filtered of the arrays the region found.
-/
import proofs.«168331_j13383118094872_2_alg».proof.Proof.R2Pieces
import proofs.«168331_j13383118094872_2_alg».proof.Proof.Payloads
import proofs.«168331_j13383118094872_2_alg».proof.Proof.SumBlocks
import proofs.«168331_j13383118094872_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Where the windows' blocks sit at grid point t: the left array's block (t / 4, t % 4), the resident array's one
    block, the output's block t / 4; and the body's column-block coordinate is t % 4. -/
theorem where2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ (grid2.coords t 1).val = t.val % 4 :=
  (by decide +kernel : ∀ t : Fin grid2.N, _)

/-- Row r of row block q, as a row of the whole array (q < 8). -/
def rowOf (q : ℕ) (r : Fin 1024) : Fin 8192 := Fin.ofNat 8192 (1024 * q + r.val)
/-- Position b of column block a, as a position of the long axis (a < 4). -/
def posOf (a : ℕ) (b : Fin 2048) : Fin 8192 := Fin.ofNat 8192 (2048 * a + b.val)

theorem rowOf_val (q : ℕ) (hq : q < 8) (r : Fin 1024) : (rowOf q r).val = 1024 * q + r.val := by
  have := r.isLt; show (1024 * q + r.val) % 8192 = _; exact Nat.mod_eq_of_lt (by omega)
theorem posOf_val (a : ℕ) (ha : a < 4) (b : Fin 2048) : (posOf a b).val = 2048 * a + b.val := by
  have := b.isLt; show (2048 * a + b.val) % 8192 = _; exact Nat.mod_eq_of_lt (by omega)

section Region2
variable (V : (c : Dev nD) → (b : Ref sig .tc) → Buf (Elt Ideal) ((c : Thread nD τ).loc b))

/-- The two arrays the region finds, as functions on the extended reals. -/
abbrev left2 (c : Dev nD) : S8192x8192.Idx → EReal := V c main_arg1
abbrev right2 (c : Dev nD) : S8192x256.Idx → EReal := V c main_v2

/-- The left window's block at point t is the left array at the point's rows and column positions. -/
theorem left_block2 (c : Dev nD) (t : Fin cfg2.N) (r : Fin 1024) (k : Fin 2048) :
    (iblk2 V c 0 t : Vec Ideal S1024x2048 .f32) (ix2 r k) = left2 V c (ix2 (rowOf (t.val / 4) r) (posOf (t.val % 4) k)) := by
  obtain ⟨e0, e1, -⟩ := where2 t
  have hN : t.val < 32 := lt_of_lt_of_eq t.isLt (show cfg2.N = 32 from N_2)
  unfold iblk2
  rw [View.read_apply]
  show V c main_arg1 _ = V c main_arg1 _
  refine congrArg (V c main_arg1) (funext fun a => Fin.ext ?_)
  match a with
  | ⟨0, _⟩ => show win2_0.index t (0 : Fin 2) * 1024 + 1 * r.val = (rowOf (t.val / 4) r).val; rw [rowOf_val _ (by omega)]; omega
  | ⟨1, _⟩ => show win2_0.index t (1 : Fin 2) * 2048 + 1 * k.val = (posOf (t.val % 4) k).val; rw [posOf_val _ (by omega)]; omega

/-- The rows of the resident array the body reads at point t are the array's rows at the point's column positions. -/
theorem right_block2 (c : Dev nD) (t : Fin cfg2.N) (k : Fin 2048) (j : Fin 256) :
    colBlock2 (iblk2 V c 1 t : Vec Ideal S8192x256 .bf16) (grid2.coords t) (ix2 k j) = right2 V c (ix2 (posOf (t.val % 4) k) j) := by
  obtain ⟨-, -, e2, e3, -, -, e6⟩ := where2 t
  unfold colBlock2 iblk2
  show View.read _ _ _ _ = _
  rw [View.read_apply]
  show V c main_v2 _ = V c main_v2 _
  refine congrArg (V c main_v2) (funext fun a => Fin.ext ?_)
  have ho := k2_off1_eq (grid2.coords t)
  match a with
  | ⟨0, _⟩ => show win2_1.index t (0 : Fin 2) * 8192 + 1 * (k2_off1 (grid2.coords t) 0 + 1 * k.val) = (posOf (t.val % 4) k).val; rw [ho, posOf_val _ (by omega)]; show win2_1.index t (0 : Fin 2) * 8192 + 1 * (2048 * (grid2.coords t 1).val + 1 * k.val) = _; omega
  | ⟨1, _⟩ => show win2_1.index t (1 : Fin 2) * 256 + 1 * (k2_off1 (grid2.coords t) 1 + 1 * j.val) = j.val; rw [ho]; show win2_1.index t (1 : Fin 2) * 256 + 1 * (0 + 1 * j.val) = _; omega

/-- The part of entry (r, j)'s long sum of row block q that lies in column block a: 2048 terms. -/
def part2 (c : Dev nD) (q a : ℕ) (r : Fin 1024) (j : Fin 256) : EReal :=
  ∑ b : Fin 2048, left2 V c (ix2 (rowOf q r) (posOf a b)) * right2 V c (ix2 (posOf a b) j)

/-- One step of the body at point t over an accumulator: the accumulator plus the point's part. -/
theorem step2 (c : Dev nD) (t : Fin cfg2.N) (acc : Vec Ideal S1024x256 .f32) (r : Fin 1024) (j : Fin 256) :
    k2_pay2 (F := Ideal) (iblk2 V c 0 t) (colBlock2 (iblk2 V c 1 t) (grid2.coords t)) acc (ix2 r j) = acc (ix2 r j) + part2 V c (t.val / 4) (t.val % 4) r j := by
  refine (Payloads.k2_pay2_apply (iblk2 V c 0 t) (colBlock2 (iblk2 V c 1 t) (grid2.coords t)) acc r j).trans ?_
  unfold part2
  refine congrArg (fun s => acc (ix2 r j) + s) (Finset.sum_congr rfl fun k _ => ?_)
  exact congrArg₂ (· * ·) (left_block2 V c t r k) (right_block2 V c t k j)

/-- After a first block the accumulator holds zero plus the point's part. -/
theorem acc2_first (c : Dev nD) (t : Fin cfg2.N) (h0 : t.val % 4 = 0) (r : Fin 1024) (j : Fin 256) :
    (outsAt2 V c t.val t.isLt).2 (ix2 r j) = 0 + part2 V c (t.val / 4) (t.val % 4) r j := by
  have h1 : ¬t.val % 4 = 3 := by omega
  rw [outsAt2_A V c t h0 h1]
  dsimp only
  rw [sout2_A_eq c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)]
  refine (step2 V c t (k2_pay1 (F := Ideal)) r j).trans ?_
  rw [Payloads.k2_pay1_apply r j]

/-- After a later block it holds what it held after the point before plus the point's part. -/
theorem acc2_next (c : Dev nD) (t : Fin cfg2.N) (h0 : ¬t.val % 4 = 0) (r : Fin 1024) (j : Fin 256) :
    (outsAt2 V c t.val t.isLt).2 (ix2 r j) = (outsAt2 V c (t.val - 1) (Nat.lt_of_le_of_lt (Nat.sub_le _ _) t.isLt)).2 (ix2 r j) + part2 V c (t.val / 4) (t.val % 4) r j := by
  by_cases h1 : t.val % 4 = 3
  · rw [outsAt2_C V c t h0 h1]
    dsimp only
    rw [sout2_C_eq c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2]
    exact step2 V c t (outsAt2 V c (t.val - 1) (Nat.lt_of_le_of_lt (Nat.sub_le _ _) t.isLt)).2 r j
  · rw [outsAt2_B V c t h0 h1]
    dsimp only
    rw [sout2_B_eq c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2]
    exact step2 V c t (outsAt2 V c (t.val - 1) (Nat.lt_of_le_of_lt (Nat.sub_le _ _) t.isLt)).2 r j

/-- So after every point the accumulator holds the sum of the parts of the column blocks so far in the point's row block. -/
theorem acc2_eq (c : Dev nD) : ∀ (n : ℕ) (hn : n < cfg2.N) (r : Fin 1024) (j : Fin 256),
    (outsAt2 V c n hn).2 (ix2 r j) = ∑ a ∈ Finset.range (n % 4 + 1), part2 V c (n / 4) a r j
  | 0, hn, r, j => by
    refine (acc2_first V c ⟨0, hn⟩ (Nat.zero_mod 4) r j).trans ?_
    show 0 + part2 V c (0 / 4) (0 % 4) r j = ∑ a ∈ Finset.range (0 % 4 + 1), part2 V c (0 / 4) a r j
    simp
  | n + 1, hn, r, j => by
    by_cases h0 : (n + 1) % 4 = 0
    · refine (acc2_first V c ⟨n + 1, hn⟩ h0 r j).trans ?_
      show 0 + part2 V c ((n + 1) / 4) ((n + 1) % 4) r j = _
      rw [h0]; simp
    · refine (acc2_next V c ⟨n + 1, hn⟩ h0 r j).trans ?_
      show (outsAt2 V c (n + 1 - 1) _).2 (ix2 r j) + part2 V c ((n + 1) / 4) ((n + 1) % 4) r j = _
      have e := acc2_eq c n (Nat.lt_of_succ_lt hn) r j
      have hq : n / 4 = (n + 1) / 4 := by omega
      have hm : n % 4 + 1 = (n + 1) % 4 := by omega
      rw [Finset.sum_range_succ, ← hm, ← hq]
      exact congrArg (fun z => z + part2 V c (n / 4) (n % 4 + 1) r j) e

/-- At a last block the accumulator holds the whole 8192-term sum of the row block's entries. -/
theorem acc2_last (c : Dev nD) (t : Fin cfg2.N) (h1 : t.val % 4 = 3) (r : Fin 1024) (j : Fin 256) :
    (outsAt2 V c t.val t.isLt).2 (ix2 r j) = ∑ k : Fin 8192, left2 V c (ix2 (rowOf (t.val / 4) r) k) * right2 V c (ix2 k j) := by
  rw [acc2_eq V c t.val t.isLt r j, h1,
    Cert.BlockSum.sum_four_blocks (fun k => left2 V c (ix2 (rowOf (t.val / 4) r) k) * right2 V c (ix2 k j)),
    Finset.sum_range (fun a => part2 V c (t.val / 4) a r j)]
  refine Finset.sum_congr rfl fun a _ => ?_
  unfold part2
  refine Finset.sum_congr rfl fun b _ => ?_
  have hp : posOf a.val b = ⟨2048 * a.val + b.val, by have := a.isLt; have := b.isLt; omega⟩ :=
    Fin.ext (posOf_val a.val a.isLt b)
  rw [hp]

/-- At a last block the output window's buffer holds the accumulator. -/
theorem out2_last (c : Dev nD) (t : Fin cfg2.N) (h1 : t.val % 4 = 3) :
    (outsAt2 V c t.val t.isLt).1 = (outsAt2 V c t.val t.isLt).2 := by
  have h0 : ¬t.val % 4 = 0 := by omega
  rw [outsAt2_C V c t h0 h1]
  dsimp only
  rw [out2_C_eq c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
    sout2_C_eq c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2]

/-- What a last-block point `t` writes back is block `t / 4` of wavelets · filtered of the arrays the region found. -/
theorem flushed2_eq (c : Dev nD) (t : Fin cfg2.N) (hf : (cfg2.win 2).flush t = true) :
    (dat2 (F := Ideal) V c).flushed 2 t = ((cfg2.win 2).blk t).view.read (Elt Ideal) (Cert.Wavelet.spread (V c main_arg1) (V c main_v2)) := by
  have h1 : t.val % 4 = 3 := (flush2_2 t).mp hf
  have hN : t.val < 32 := lt_of_lt_of_eq t.isLt (show cfg2.N = 32 from N_2)
  obtain ⟨-, -, -, -, e4, e5, -⟩ := where2 t
  show (cfg2.win 2).cut (grid2.coords t) ((dat2 (F := Ideal) V c).after 2 t) = _
  rw [after2_2, out2_last V c t h1]
  funext j
  obtain ⟨r, q, rfl⟩ : ∃ (r : Fin 1024) (q : Fin 256), j = ix2 r q := ⟨j 0, j 1, eq_ix2 (n0 := 1024) (n1 := 256) j⟩
  show (outsAt2 V c t.val t.isLt).2 (ix2 r q) = Cert.Wavelet.spread (V c main_arg1) (V c main_v2) (((cfg2.win 2).blk t).view.emb (ix2 r q))
  rw [acc2_last V c t h1 r q]
  unfold Cert.Wavelet.spread
  have hrow : (((cfg2.win 2).blk t).view.emb (ix2 r q)) 0 = rowOf (t.val / 4) r := Fin.ext (by
    show win2_2.index t (0 : Fin 2) * 1024 + 1 * r.val = (rowOf (t.val / 4) r).val; rw [rowOf_val _ (by omega)]; omega)
  have hcol : (((cfg2.win 2).blk t).view.emb (ix2 r q)) 1 = q := Fin.ext (by
    show win2_2.index t (1 : Fin 2) * 256 + 1 * q.val = q.val; omega)
  rw [hrow, hcol]

/-- An index of the result array is in point `t`'s block iff each coordinate is in the block's range on its axis. -/
theorem mem_blk2 (t : Fin cfg2.N) (i : S8192x256.Idx) :
    i ∈ ((cfg2.win 2).blk t).view.set ↔ ∀ a : Fin 2, win2_2.index t a * S1024x256.size a ≤ (i a).val ∧ (i a).val < win2_2.index t a * S1024x256.size a + S1024x256.size a := by
  show i ∈ ((View.whole main_v3).slice (win2_2.rect t)).set ↔ _
  rw [View.set_slice_whole, Rect.mem_set_unit]
  exact Iff.rfl

/-- Every row of the result array lies in the block written back at the last column block of its row block. -/
theorem cover2 (i : S8192x256.Idx) : ∃ t : Fin cfg2.N, (cfg2.win 2).flush t = true ∧ i ∈ ((cfg2.win 2).blk t).view.set := by
  have hi0 : (i 0).val < 8192 := (i 0).isLt
  have hi1 : (i 1).val < 256 := (i 1).isLt
  have hN : cfg2.N = 32 := N_2
  let t : Fin cfg2.N := ⟨4 * ((i 0).val / 1024) + 3, by omega⟩
  obtain ⟨-, -, -, -, e4, e5, -⟩ := where2 t
  have e4' : win2_2.index t (0 : Fin 2) = (4 * ((i 0).val / 1024) + 3) / 4 := e4
  refine ⟨t, (flush2_2 t).mpr (show (4 * ((i 0).val / 1024) + 3) % 4 = 3 by omega), ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 256 ≤ (i 1).val ∧ (i 1).val < win2_2.index t (1 : Fin 2) * 256 + 256; omega

/-- After region 2 its result array holds wavelets · filtered of the arrays it found. -/
theorem final2 (c : Dev nD) :
    (dat2 (F := Ideal) V c).arrAt 2 cfg2.N = Cert.Wavelet.spread (V c main_arg1) (V c main_v2) :=
  (dat2 (F := Ideal) V c).arrAt_eq_of_cover 2 (Cert.Wavelet.spread (V c main_arg1) (V c main_v2))
    (fun t hf => flushed2_eq V c t hf) cover2

end Region2

end Cert.KernelIdeal.Hand

end
-- ==== Proof.Bridge.lean ====
/-
  What the three regions leave, chained: region 0's result array holds features · weight; the host reshape makes the
  filter a column; region 1's result array holds filt ⊙ (wavelets_inv · that); region 2's holds wavelets · that — the
  layer of the five argument arrays as launched, since no item writes an argument.
-/
import proofs.«168331_j13383118094872_2_alg».proof.Proof.KernelRun
import proofs.«168331_j13383118094872_2_alg».proof.Proof.Spec
import proofs.«168331_j13383118094872_2_alg».proof.Proof.LibVectorAsMatrix
import proofs.«168331_j13383118094872_2_alg».proof.Proof.R0Value
import proofs.«168331_j13383118094872_2_alg».proof.Proof.R1Value
import proofs.«168331_j13383118094872_2_alg».proof.Proof.R2Value
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- No host operation of the one stretch writes anything but the filter column. -/
theorem W2_of_ne (c : Dev nD) (b : Ref sig .tc) (hb : b ≠ main_v1) : W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The filter as a column: entry (r, 0) of the reshaped array is the filter's entry r as launched. -/
theorem filt_column (c : Dev nD) (r : Fin 8192) :
    (V2 m c main_v1 : S8192x1.Idx → EReal) (ix2 r 0) = (m ((c : Thread nD τ).loc main_arg4) : S8192.Idx → EReal) (ix1 r) := by
  have e : (V2 m c main_v1 : S8192x1.Idx → EReal) = shapeCast S8192x1 (W1 m c (Proc.devRef .tc main_arg4) : S8192.Idx → EReal) shapeCasts_S8192_S8192x1 := by
    show StableHlo.after hostOps1 (W1 m c) (Proc.devRef .tc main_v1) = _
    after_results; rfl
  rw [e, VectorAsMatrix.col_apply, W1_of_ne m c main_arg4 (by decide)]

/-- Region 0's result array: features · weight of the launched arrays. -/
theorem transformed_eq (c : Dev nD) :
    (V2 m c main_v0 : S8192x256.Idx → EReal) = Cert.Wavelet.transformed (m ((c : Thread nD τ).loc main_arg0)) (m ((c : Thread nD τ).loc main_arg3)) :=
  (W2_of_ne m c main_v0 (by decide)).trans ((W1_arr m c 2).trans (final0 (V0 m) c))

/-- Region 1's result array: the row-scaled product of the launched wavelets_inv with region 0's result. -/
theorem filtered_eq (c : Dev nD) :
    (V3 m c main_v2 : S8192x256.Idx → EReal) = Cert.Wavelet.filtered (m ((c : Thread nD τ).loc main_arg2)) (m ((c : Thread nD τ).loc main_arg4))
      (Cert.Wavelet.transformed (m ((c : Thread nD τ).loc main_arg0)) (m ((c : Thread nD τ).loc main_arg3))) := by
  refine (W3_arr m c 3).trans ((final1 (V2 m) c).trans ?_)
  funext i
  unfold Cert.Wavelet.filtered Cert.Wavelet.scaledProduct
  rw [filt_column m c (i 0), transformed_eq m c,
    show (V2 m c main_arg2 : S8192x8192.Idx → EReal) = m ((c : Thread nD τ).loc main_arg2) from
      (W2_of_ne m c main_arg2 (by decide)).trans (W1_of_ne m c main_arg2 (by decide))]

/-- Region 2's result array: the layer of the launched arrays. -/
theorem result_eq (c : Dev nD) :
    (dat2 (V3 m) c).arrAt 2 cfg2.N = Cert.Wavelet.layer (m ((c : Thread nD τ).loc main_arg0)) (m ((c : Thread nD τ).loc main_arg1))
      (m ((c : Thread nD τ).loc main_arg2)) (m ((c : Thread nD τ).loc main_arg3)) (m ((c : Thread nD τ).loc main_arg4)) := by
  refine (final2 (V3 m) c).trans ?_
  funext i
  unfold Cert.Wavelet.layer Cert.Wavelet.spread
  rw [filtered_eq m c,
    show (V3 m c main_arg1 : S8192x8192.Idx → EReal) = m ((c : Thread nD τ).loc main_arg1) from
      (W3_of_ne m c main_arg1 (by decide)).trans ((W2_of_ne m c main_arg1 (by decide)).trans (W1_of_ne m c main_arg1 (by decide)))]

/-- The idealized kernel's run with its result named: the layer of the argument arrays. -/
theorem run_layer (ρ : Dev nD → PrngReg) : θ_run defs (onTc (τ := τ) (main (F := Ideal))) ⟨m, fun _ => 0, ρ⟩ (fun r => ∀ c : Dev nD,
      r.2.mem ((c.tc : Thread nD τ).loc main_v3) = Cert.Wavelet.layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m c), (h c).2⟩) (run_result m ρ)

end Cert.KernelIdeal.Hand

end
-- ==== Proof.RefValue.lean ====
/-
  The reference program's result is the graph-wavelet layer of its five argument arrays.

  Its run leaves in the result array three contractions and a row scale composed: a 256-term contraction of
  features with weight, an 8192-term contraction of wavelets_inv with that, every row r of the outcome scaled by
  filt(r) (the scale first repeated along a unit axis, then along the 256 columns), and an 8192-term contraction
  of wavelets with the scaled array. Read at one index (r, j), each contraction is a sum over its one contracted
  coordinate k of the left array at (r, k) times the right array at (k, j), each repetition reads its operand at
  the row coordinate alone, and the product is the product of the extended reals. Entry by entry these are the
  three functions of the specification, composed in the same order; no law of arithmetic is used.
-/
import proofs.«168331_j13383118094872_2_alg».proof.Proof.Gen.ReferenceIdeal.Read
import proofs.«168331_j13383118094872_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## Where each operation reads its operands

A contraction's entry (r, j) reads its left operand at (r, k) and its right operand at (k, j); the row scale's
entry (r, j) reads the scale at r. -/

/-- features · weight at (r, j) reads features at (r, k) … -/
theorem left_of_transformed (i : S8192x256.Idx) (k : Fin 256) : lidx_main_v0 i k = ix2 (i 0) k := by
  funext a; match a with | ⟨0, _⟩ => rfl | ⟨1, _⟩ => rfl
/-- … and weight at (k, j). -/
theorem right_of_transformed (i : S8192x256.Idx) (k : Fin 256) : ridx_main_v0 i k = ix2 k (i 1) := by
  funext a; match a with | ⟨0, _⟩ => rfl | ⟨1, _⟩ => rfl
/-- wavelets_inv · transformed at (r, j) reads wavelets_inv at (r, k) … -/
theorem left_of_spectral (i : S8192x256.Idx) (k : Fin 8192) : lidx_main_v1 i k = ix2 (i 0) k := by
  funext a; match a with | ⟨0, _⟩ => rfl | ⟨1, _⟩ => rfl
/-- … and transformed at (k, j). -/
theorem right_of_spectral (i : S8192x256.Idx) (k : Fin 8192) : ridx_main_v1 i k = ix2 k (i 1) := by
  funext a; match a with | ⟨0, _⟩ => rfl | ⟨1, _⟩ => rfl
/-- The scale repeated along a unit axis and then along the columns reads filt at the row coordinate. -/
theorem row_of_scale (i : S8192x256.Idx) : idx_main_v2 (idx_main_v3 i) = ix1 (i 0) := by
  funext a; match a with | ⟨0, _⟩ => rfl
/-- wavelets · filtered at (r, j) reads wavelets at (r, k) … -/
theorem left_of_spread (i : S8192x256.Idx) (k : Fin 8192) : lidx_main_v5 i k = ix2 (i 0) k := by
  funext a; match a with | ⟨0, _⟩ => rfl | ⟨1, _⟩ => rfl
/-- … and filtered at (k, j). -/
theorem right_of_spread (i : S8192x256.Idx) (k : Fin 8192) : ridx_main_v5 i k = ix2 k (i 1) := by
  funext a; match a with | ⟨0, _⟩ => rfl | ⟨1, _⟩ => rfl

/-! ## The stages are the specification's functions -/

/-- The first contraction is `transformed`. -/
theorem transformed_eq (x0 : (⟨S8192x256, .f32⟩ : BufTy).Contents (Elt Ideal)) (x3 : (⟨S256x256, .f32⟩ : BufTy).Contents (Elt Ideal)) :
    val_main_v0 (F := Ideal) x0 x3 = Cert.Wavelet.transformed x0 x3 := by
  funext i
  rw [val_main_v0_apply]
  unfold Cert.Wavelet.transformed
  refine Finset.sum_congr rfl fun k _ => ?_
  rw [left_of_transformed, right_of_transformed]
  rfl

/-- The second contraction, scaled row by row, is `filtered` of `transformed`. -/
theorem filtered_eq (x0 : (⟨S8192x256, .f32⟩ : BufTy).Contents (Elt Ideal)) (x2 : (⟨S8192x8192, .f32⟩ : BufTy).Contents (Elt Ideal))
    (x3 : (⟨S256x256, .f32⟩ : BufTy).Contents (Elt Ideal)) (x4 : (⟨S8192, .f32⟩ : BufTy).Contents (Elt Ideal)) :
    val_main_v4 (F := Ideal) x0 x2 x3 x4 = Cert.Wavelet.filtered x2 x4 (Cert.Wavelet.transformed x0 x3) := by
  funext i
  rw [val_main_v4_apply, val_main_v3_apply, val_main_v2_apply, val_main_v1_apply, transformed_eq, row_of_scale, Ideal.mulf_def]
  unfold Cert.Wavelet.filtered
  refine congrArg (fun s => x4 (ix1 (i 0)) * s) (Finset.sum_congr rfl fun k _ => ?_)
  rw [left_of_spectral, right_of_spectral]
  rfl

/-- The whole composed term is `layer`. -/
theorem layer_eq (x0 : (⟨S8192x256, .f32⟩ : BufTy).Contents (Elt Ideal)) (x1 x2 : (⟨S8192x8192, .f32⟩ : BufTy).Contents (Elt Ideal))
    (x3 : (⟨S256x256, .f32⟩ : BufTy).Contents (Elt Ideal)) (x4 : (⟨S8192, .f32⟩ : BufTy).Contents (Elt Ideal)) :
    val_main_v5 (F := Ideal) x0 x1 x2 x3 x4 = Cert.Wavelet.layer x0 x1 x2 x3 x4 := by
  funext i
  rw [val_main_v5_apply, filtered_eq]
  unfold Cert.Wavelet.layer Cert.Wavelet.spread
  refine Finset.sum_congr rfl fun k _ => ?_
  rw [left_of_spread, right_of_spread]
  rfl

/-! ## The run -/

/-- Every weakly fair execution of the reference terminates with the result array at `layer` of the argument
    arrays as they were at the start, and the argument arrays unchanged. -/
theorem run_layer (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v5)
        = Cert.Wavelet.layer (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v5_eq (F := Ideal) _ _ _ _ _).trans (layer_eq _ _ _ _ _)), (h c).2⟩)
    (Cert.ReferenceIdeal.Value.run (F := Ideal) m ρ)

/-- Every weakly fair execution of the reference terminates with the argument arrays unchanged. -/
theorem frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c => (h c).2) (Cert.ReferenceIdeal.Value.run (F := Ideal) m ρ)

end Cert.ReferenceIdeal.RefValue

end
-- ==== Proof.lean ====
/-
  The certificate of a graph-wavelet layer: a three-stage Pallas kernel — features · weight; wavelets_inv · that, scaled
  row by row by the filter; wavelets · that — against the same four jnp lines. Each long contraction is accumulated by the
  kernel over four column blocks of 2048 into a scratch accumulator carried across grid points, reset at a row block's
  first column block and stored out (scaled, in the middle stage) at its last; intermediate arrays are kept in bf16,
  which on the extended reals is the identity. Both programs therefore compute the one function `Cert.Wavelet.layer` of
  the five argument arrays: a sum of 8192 terms is the running sum of its four blocks of 2048 because addition of
  extended reals is commutative and associative, and the row scale commutes with the product; finiteness of the inputs
  is never used.
  The frames of the two kernel programs come from one argument, stated at any float instance: each region's body run
  case by case (first / middle / last column block), the accumulator's contents after every point kept in the region's
  invariant, the three regions chained through @main's buffer contents. The reference's run and the three regions'
  value legs give the algebraic claim; the ideal pass rewrote nothing, so `preserves` is trivial.
-/
import proofs.«168331_j13383118094872_2_alg».proof.Defs
import proofs.«168331_j13383118094872_2_alg».proof.Proof.Gen.Kernel
import proofs.«168331_j13383118094872_2_alg».proof.Proof.Gen.KernelIdeal
import proofs.«168331_j13383118094872_2_alg».proof.Proof.Gen.ReferenceIdeal
import proofs.«168331_j13383118094872_2_alg».proof.Proof.Gen.Pre_finite_inputs
import proofs.«168331_j13383118094872_2_alg».proof.Proof.WordLevel.KernelRun
import proofs.«168331_j13383118094872_2_alg».proof.Proof.Bridge
import proofs.«168331_j13383118094872_2_alg».proof.Proof.RefValue

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.RefValue.frame m ρ

/-- From memories agreeing on the arguments both idealized programs end with the layer of those arguments. -/
theorem algebraic : Cert.algebraic_KernelIdeal_ReferenceIdeal := by
  intro m ρ m' ρ' _ hagree
  refine ⟨_, Cert.KernelIdeal.Hand.run_layer m ρ, ?_⟩
  refine (θ_run Cert.ReferenceIdeal.defs _ _).mono (fun _ h c => ⟨(h c).1.trans ?_, (h c).2⟩)
    (Cert.ReferenceIdeal.RefValue.run_layer m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
